-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8 : Shape := ⟨2, ![16384, 8]⟩
abbrev S8x8 : Shape := ⟨2, ![8, 8]⟩
abbrev S4096 : Shape := ⟨1, ![4096]⟩
abbrev S64x4096 : Shape := ⟨2, ![64, 4096]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x8 : S_.BroadcastsInDim S16384x8 (![] : Fin 0 → Fin S16384x8.rank)
  reducesTo_S16384x8_S_d0_1 : S16384x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x4096 .f32) (main_arg5 : FVec F S64 .f32) (main_arg6 : FVec F S1x64 .f32) (main_arg7 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S16384x8 .f32) (main_arg1 : FVec F S8x8 .f32) (main_arg2 : FVec F S4096 .f32) (main_arg3 : FVec F S4096 .f32) (main_arg4 : FVec F S64x4096 .f32) (main_arg5 : FVec F S64 .f32) (main_arg6 : FVec F S1x64 .f32) (main_arg7 : FVec F S1 .f32) : IVec S_ 1 :=
  let main_v0 : FVec F S16384x8 .f32 := Host.absf main_arg0
  let main_cst : FVec F S_ .f32 := constant S_ .f32 0x7F800000#32
  let main_v1 : FVec F S16384x8 .f32 := broadcastInDim S16384x8 ![] bcast_S_S16384x8 main_cst
  let main_v2 : IVec S16384x8 1 := cmpf .olt main_v0 main_v1
  let main_c : IVec S_ 1 := constantI S_ 1 1#1
  let main_v3 : IVec S_ 1 := (fun x v => Host.reduce IntOp.andi x v reducesTo_S16384x8_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S16384x8 : Shape := ⟨2, ![16384, 8]⟩
abbrev S8x8 : Shape := ⟨2, ![8, 8]⟩
abbrev S4096 : Shape := ⟨1, ![4096]⟩
abbrev S64x4096 : Shape := ⟨2, ![64, 4096]⟩
abbrev S64 : Shape := ⟨1, ![64]⟩
abbrev S1x64 : Shape := ⟨2, ![1, 64]⟩
abbrev S1 : Shape := ⟨1, ![1]⟩
abbrev S_ : Shape := ⟨0, ![]⟩
abbrev S8 : Shape := ⟨1, ![8]⟩
abbrev S8x1 : Shape := ⟨2, ![8, 1]⟩
abbrev S1x4096 : Shape := ⟨2, ![1, 4096]⟩
abbrev S8x4096 : Shape := ⟨2, ![8, 4096]⟩
abbrev S4096x64 : Shape := ⟨2, ![4096, 64]⟩
abbrev S64x1 : Shape := ⟨2, ![64, 1]⟩
abbrev S4096x1 : Shape := ⟨2, ![4096, 1]⟩
abbrev S1x1 : Shape := ⟨2, ![1, 1]⟩
abbrev S16384x1 : Shape := ⟨2, ![16384, 1]⟩
abbrev S512x8 : Shape := ⟨2, ![512, 8]⟩
abbrev S512x1 : Shape := ⟨2, ![512, 1]⟩
abbrev S512x4096 : Shape := ⟨2, ![512, 4096]⟩

abbrev nBuf : Space → Nat
  | .hbm => 50
  | .vmem => 8
  | .smem => 0
  | _ => 0

abbrev bufTy : (tb : Table) → Fin (tcTables nBuf tb) → BufTy
  | .hbm, ⟨0, _⟩ => ⟨S16384x8, .f32⟩
  | .hbm, ⟨1, _⟩ => ⟨S8x8, .f32⟩
  | .hbm, ⟨2, _⟩ => ⟨S4096, .f32⟩
  | .hbm, ⟨3, _⟩ => ⟨S4096, .f32⟩
  | .hbm, ⟨4, _⟩ => ⟨S64x4096, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S8x8, .f32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S8, .i32⟩
  | .hbm, ⟨29, _⟩ => ⟨S8x1, .i32⟩
  | .hbm, ⟨30, _⟩ => ⟨S1x4096, .i32⟩
  | .hbm, ⟨31, _⟩ => ⟨S8x4096, .i32⟩
  | .hbm, ⟨32, _⟩ => ⟨S8x4096, .i32⟩
  | .hbm, ⟨33, _⟩ => ⟨S8x4096, .i1⟩
  | .hbm, ⟨34, _⟩ => ⟨S8x4096, .f32⟩
  | .hbm, ⟨35, _⟩ => ⟨S1x4096, .f32⟩
  | .hbm, ⟨36, _⟩ => ⟨S8x4096, .f32⟩
  | .hbm, ⟨37, _⟩ => ⟨S8x4096, .f32⟩
  | .hbm, ⟨38, _⟩ => ⟨S8x4096, .f32⟩
  | .hbm, ⟨39, _⟩ => ⟨S8x4096, .bf16⟩
  | .hbm, ⟨40, _⟩ => ⟨S1x4096, .f32⟩
  | .hbm, ⟨41, _⟩ => ⟨S4096x64, .f32⟩
  | .hbm, ⟨42, _⟩ => ⟨S64x1, .f32⟩
  | .hbm, ⟨43, _⟩ => ⟨S4096x1, .f32⟩
  | .hbm, ⟨44, _⟩ => ⟨S4096x1, .bf16⟩
  | .hbm, ⟨45, _⟩ => ⟨S1x64, .f32⟩
  | .hbm, ⟨46, _⟩ => ⟨S1x1, .f32⟩
  | .hbm, ⟨47, _⟩ => ⟨S1x1, .f32⟩
  | .hbm, ⟨48, _⟩ => ⟨S1x1, .f32⟩
  | .hbm, ⟨49, _⟩ => ⟨S16384x1, .f32⟩
  | .local _ .vmem, ⟨0, _⟩ => ⟨S512x8, .f32⟩
  | .local _ .vmem, ⟨1, _⟩ => ⟨S512x8, .f32⟩
  | .local _ .vmem, ⟨2, _⟩ => ⟨S8x4096, .bf16⟩
  | .local _ .vmem, ⟨3, _⟩ => ⟨S1x4096, .f32⟩
  | .local _ .vmem, ⟨4, _⟩ => ⟨S4096x1, .bf16⟩
  | .local _ .vmem, ⟨5, _⟩ => ⟨S1x1, .f32⟩
  | .local _ .vmem, ⟨6, _⟩ => ⟨S512x1, .f32⟩
  | .local _ .vmem, ⟨7, _⟩ => ⟨S512x1, .f32⟩
  | _, _ => ⟨S16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x8_S8x8_1_0 : S8x8.Transposes [1, 0] S8x8
  bcast_S_S4096 : S_.BroadcastsInDim S4096 (![] : Fin 0 → Fin S4096.rank)
  bcast_S8_S8x1_0 : S8.BroadcastsInDim S8x1 (![0] : Fin 1 → Fin S8x1.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  shapeCasts_S4096_S1x4096 : S4096.ShapeCasts S1x4096
  bitsLt_bf16_f32 : FTy.bits .bf16 < FTy.bits .f32
  transposes_S64x4096_S4096x64_1_0 : S64x4096.Transposes [1, 0] S4096x64
  transposes_S1x64_S64x1_1_0 : S1x64.Transposes [1, 0] S64x1
  shapeCasts_S64_S1x64 : S64.ShapeCasts S1x64
  shapeCasts_S1_S1x1 : S1.ShapeCasts S1x1
  inb_S512x8_S512x8_0_0 : ∀ a, (![0, 0] : Fin 2 → Nat) a + S512x8.size a ≤ S512x8.size a
  h_S512x8 : 0 < S512x8.numel
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S8x8_S8x4096_S8x4096_1_0_0_1_n_n_wf : DotDims.WF S8x8 S8x4096 S8x4096 [1] [0] [0] [1] [] []
  dot_S4096x64_S64x1_S4096x1_1_0_0_1_n_n_wf : DotDims.WF S4096x64 S64x1 S4096x1 [1] [0] [0] [1] [] []
  dot_S1x64_S64x1_S1x1_1_0_0_1_n_n_wf : DotDims.WF S1x64 S64x1 S1x1 [1] [0] [0] [1] [] []
  dot_S512x8_S8x4096_S512x4096_1_0_0_1_n_n_wf : DotDims.WF S512x8 S8x4096 S512x4096 [1] [0] [0] [1] [] []
  dot_S512x4096_S4096x1_S512x1_1_0_0_1_n_n_wf : DotDims.WF S512x4096 S4096x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4096x1.size a
  hwx0_3 : ∀ i : grid0.Coords, EltTy.bits .bf16 = 32 ∨ (Rect.block (s := S4096x1) S4096x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)

variable [Facts₀]

def dot_S8x8_S8x4096_S8x4096_1_0_0_1_n_n : DotDims S8x8 S8x4096 S8x4096 where
  lhsContracting := [1]
  rhsContracting := [0]
  lhsNonContracting := [0]
  rhsNonContracting := [1]
  lhsBatch := []
  rhsBatch := []
  wf := dot_S8x8_S8x4096_S8x4096_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1_S512x1_1_0_0_1_n_n : DotDims S512x4096 S4096x1 S512x1 where
  lhsContracting := [1]
  rhsContracting := [0]
  lhsNonContracting := [0]
  rhsNonContracting := [1]
  lhsBatch := []
  rhsBatch := []
  wf := dot_S512x4096_S4096x1_S512x1_1_0_0_1_n_n_wf

abbrev win0_0 : Pipeline.Window sig grid0 :=
  Pipeline.Window.ofSpec (Memref.whole main_arg0) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x8 : Shape := ⟨2, ![16384, 8]⟩
abbrev S8x8 : Shape := ⟨2, ![8, 8]⟩
abbrev S4096 : Shape := ⟨1, ![4096]⟩
abbrev S64x4096 : Shape := ⟨2, ![64, 4096]⟩
abbrev S64 : Shape := ⟨1, ![64]⟩
abbrev S1x64 : Shape := ⟨2, ![1, 64]⟩
abbrev S1 : Shape := ⟨1, ![1]⟩
abbrev S_ : Shape := ⟨0, ![]⟩
abbrev S4096x1 : Shape := ⟨2, ![4096, 1]⟩
abbrev S16384x4096 : Shape := ⟨2, ![16384, 4096]⟩
abbrev S1x4096 : Shape := ⟨2, ![1, 4096]⟩
abbrev S16384x64 : Shape := ⟨2, ![16384, 64]⟩
abbrev S16384x1 : Shape := ⟨2, ![16384, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x8, .f32⟩
  | .hbm, ⟨1, _⟩ => ⟨S8x8, .f32⟩
  | .hbm, ⟨2, _⟩ => ⟨S4096, .f32⟩
  | .hbm, ⟨3, _⟩ => ⟨S4096, .f32⟩
  | .hbm, ⟨4, _⟩ => ⟨S64x4096, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S16384x8, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S16384x1, .f32⟩
  | .hbm, ⟨56, _⟩ => ⟨S1x1, .f32⟩
  | .hbm, ⟨57, _⟩ => ⟨S16384x1, .f32⟩
  | .hbm, ⟨58, _⟩ => ⟨S16384x1, .f32⟩
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x8_S8x8_S16384x8_1_1_0_0_n_n_wf : DotDims.WF S16384x8 S8x8 S16384x8 [1] [1] [0] [0] [] []
  gather_S16384x8_S4096x1_S16384x4096_0_1_n_n_1_1_163841_wf : GatherDims.WF S16384x8 S4096x1 S16384x4096 [0] [1] [] [1] [] 1 ![16384, 1]
  dot_S16384x4096_S64x4096_S16384x64_1_1_0_0_n_n_wf : DotDims.WF S16384x4096 S64x4096 S16384x64 [1] [1] [0] [0] [] []
  dot_S16384x64_S1x64_S16384x1_1_1_0_0_n_n_wf : DotDims.WF S16384x64 S1x64 S16384x1 [1] [1] [0] [0] [] []

variable [Facts₀]

def dot_S16384x8_S8x8_S16384x8_1_1_0_0_n_n : DotDims S16384x8 S8x8 S16384x8 where
  lhsContracting := [1]
  rhsContracting := [1]
  lhsNonContracting := [0]
  rhsNonContracting := [0]
  lhsBatch := []
  rhsBatch := []
  wf := dot_S16384x8_S8x8_S16384x8_1_1_0_0_n_n_wf
def gather_S16384x8_S4096x1_S16384x4096_0_1_n_n_1_1_163841 : GatherDims S16384x8 S4096x1 S16384x4096 where
  offsetDims := [0]
  collapsedSliceDims := [1]
  operandBatchingDims := []
  startIndicesBatchingDims := []
  startIndexMap := [1]
  indexVectorDim := 1
  sliceSizes := ![16384, 1]
  wf := gather_S16384x8_S4096x1_S16384x4096_0_1_n_n_1_1_163841_wf
def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def dot_S16384x64_S1x64_S16384x1_1_1_0_0_n_n : DotDims S16384x64 S1x64 S16384x1 where
  lhsContracting := [1]
  rhsContracting := [1]
  lhsNonContracting := [0]
  rhsNonContracting := [0]
  lhsBatch := []
  rhsBatch := []
  wf := dot_S16384x64_S1x64_S16384x1_1_1_0_0_n_n_wf

class Facts : Prop extends Facts₀ where

variable [Facts]
-- ==== Proof.Spec.lean ====
/-
  The mathematics of this certificate, stated once and free of either program.

  Inputs: x [16384, 8], swm [8, 8], coeff [4096], bias [4096], W2 [64, 4096], b2 [64], Wout [1, 64], bout [1],
  all read as extended reals.  Hidden unit n belongs to group  grp n = n / 512  (eight groups of 512 units).

  The reference's arrangement (`refOut`):
      proj r g   = Σ_i x[r,i] · swm[g,i]
      act  r n   = clip01 (proj r (grp n) · coeff[n] + bias[n])
      out  r     = Σ_l ((Σ_n act r n · W2[l,n]) + b2[l]) · Wout[0,l]  +  bout[0]

  The kernel's arrangement (`kerOut`): the group selection and the scale are folded into one [8, 4096] matrix, and the two
  affine layers after the clip into one [4096, 1] column and one number:
      mix i n    = Σ_j swm[j,i] · (sel j n · coeff[n]),     sel j n = 1 if grp n = j, else 0
      wf  n      = Σ_l W2[l,n] · Wout[0,l]
      bf         = (Σ_l b2[l] · Wout[0,l]) + bout[0]
      act' r n   = clip01 ((Σ_i x[r,i] · mix i n) + bias[n])
      out' r     = (Σ_n act' r n · wf n) + bf

  The two agree when every input entry is a real number: then sums distribute over products, the selector sum collapses to
  the selected row of swm, and the double sum over (n, l) may be taken in either order.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (a b : Nat) : Type := FVec Ideal (⟨2, ![a, b]⟩ : Shape) .f32
/-- A rank-1 array of extended reals. -/
abbrev Arr1 (a : Nat) : Type := FVec Ideal (⟨1, ![a]⟩ : Shape) .f32

/-- The group of hidden unit `n`: eight consecutive groups of 512 units. -/
def grp (n : Fin 4096) : Fin 8 := ⟨n.val / 512, by have := n.isLt; omega⟩

/-- Clipping to the interval between the two literal words 0.0 and 1.0 (lower bound applied first). -/
def clip01 (h : EReal) : EReal :=
  min (Ideal.ofBits .f32 0x3F800000#32) (max (Ideal.ofBits .f32 0x00000000#32) h)

/-! ## The reference's arrangement -/

/-- Row `r` of x against row `g` of swm. -/
def proj (x : Arr2 16384 8) (swm : Arr2 8 8) (r : Fin 16384) (g : Fin 8) : EReal :=
  ∑ i : Fin 8, x (ix2 r i) * swm (ix2 g i)

/-- The clipped hidden activation of unit `n` on row `r`. -/
def actRef (x : Arr2 16384 8) (swm : Arr2 8 8) (coeff bias : Arr1 4096) (r : Fin 16384) (n : Fin 4096) : EReal :=
  clip01 (proj x swm r (grp n) * coeff (ix1 n) + bias (ix1 n))

/-- The network's output in the reference's arrangement: two affine layers after the clip. -/
def refOut (x : Arr2 16384 8) (swm : Arr2 8 8) (coeff bias : Arr1 4096) (W2 : Arr2 64 4096) (b2 : Arr1 64)
    (Wout : Arr2 1 64) (bout : Arr1 1) : Arr2 16384 1 := fun j =>
  (∑ l : Fin 64, ((∑ n : Fin 4096, actRef x swm coeff bias (j 0) n * W2 (ix2 l n)) + b2 (ix1 l)) * Wout (ix2 (j 1) l))
    + bout (ix1 (j 1))

/-! ## The kernel's arrangement -/

/-- The group selector: 1 where unit `n` is in group `j`, else 0. -/
def sel (j : Fin 8) (n : Fin 4096) : EReal := if grp n = j then 1 else 0

/-- The folded first-layer matrix: column `n` is the selected row of swm scaled by coeff[n]. -/
def mix (swm : Arr2 8 8) (coeff : Arr1 4096) (i : Fin 8) (n : Fin 4096) : EReal :=
  ∑ j : Fin 8, swm (ix2 j i) * (sel j n * coeff (ix1 n))

/-- The two affine layers after the clip folded into one column. -/
def wf (W2 : Arr2 64 4096) (Wout : Arr2 1 64) (n : Fin 4096) (c : Fin 1) : EReal :=
  ∑ l : Fin 64, W2 (ix2 l n) * Wout (ix2 c l)

/-- The folded bias of the two affine layers. -/
def bf (b2 : Arr1 64) (Wout : Arr2 1 64) (bout : Arr1 1) (c : Fin 1) : EReal :=
  (∑ l : Fin 64, b2 (ix1 l) * Wout (ix2 c l)) + bout (ix1 c)

/-- The clipped hidden activation computed from the folded matrix. -/
def actKer (x : Arr2 16384 8) (swm : Arr2 8 8) (coeff bias : Arr1 4096) (r : Fin 16384) (n : Fin 4096) : EReal :=
  clip01 ((∑ i : Fin 8, x (ix2 r i) * mix swm coeff i n) + bias (ix1 n))

/-- The network's output in the kernel's arrangement. -/
def kerOut (x : Arr2 16384 8) (swm : Arr2 8 8) (coeff bias : Arr1 4096) (W2 : Arr2 64 4096) (b2 : Arr1 64)
    (Wout : Arr2 1 64) (bout : Arr1 1) : Arr2 16384 1 := fun j =>
  (∑ n : Fin 4096, actKer x swm coeff bias (j 0) n * wf W2 Wout n (j 1)) + bf b2 Wout bout (j 1)

/-- Every entry of an array is a real number (neither infinity). -/
def Finite {S : Shape} (a : FVec Ideal S .f32) : Prop := ∀ i : S.Idx, a i ≠ ⊤ ∧ a i ≠ ⊥

end Cert.Spec

end
-- ==== Proof.Algebra.lean ====
/-
  The real algebra behind the certificate: when every input entry is a real number, the kernel's folded arrangement
  (`kerOut`) and the reference's arrangement (`refOut`) of the specification denote the same array.

  Three facts carry it.
    (i)   The selector sum collapses:  mix i n = swm[grp n, i] · coeff[n]  (one non-zero term; true for all extended reals).
    (ii)  Σ_i x[r,i] · (swm[g,i] · coeff[n]) = (Σ_i x[r,i] · swm[g,i]) · coeff[n]  for real entries, so the two clipped
          activations agree.
    (iii) With a_n the clipped activation (a real in [0, 1]):
            (Σ_n a_n · Σ_l W2[l,n] · Wout[c,l]) + ((Σ_l b2[l] · Wout[c,l]) + bout[c])
              = (Σ_l ((Σ_n a_n · W2[l,n]) + b2[l]) · Wout[c,l]) + bout[c]
          by distributing and exchanging the two finite sums.
  Distributivity fails on the extended reals at the infinities, so (ii) and (iii) are proved over the reals and carried
  back through the coercion.
-/
import proofs.«173882_j38946763440762_2_alg».proof.Proof.Spec
import Mathlib.Data.EReal.Basic
import Mathlib.Algebra.BigOperators.Ring.Finset
import Mathlib.Tactic

noncomputable section

namespace Cert.Spec

open Idealize.ShloMosaic Idealize.ShloMosaic.ValueIdx

/-! ## Real-valued facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (iii) over the reals: the two affine layers after the activation fold into one column and one number. -/
theorem fold_real {ι κ : Type*} [Fintype ι] [Fintype κ] (a : ι → ℝ) (W : κ → ι → ℝ) (b w : κ → ℝ) (c : ℝ) :
    (∑ n, a n * ∑ l, W l n * w l) + ((∑ l, b l * w l) + c)
      = (∑ l, ((∑ n, a n * W l n) + b l) * w l) + c := by
  have h1 : (∑ n, a n * ∑ l, W l n * w l) = ∑ l, (∑ n, a n * W l n) * w l := by
    simp only [Finset.mul_sum, Finset.sum_mul]
    rw [Finset.sum_comm]
    refine Finset.sum_congr rfl fun l _ => Finset.sum_congr rfl fun n _ => ?_
    ring
  rw [h1]
  simp only [add_mul, Finset.sum_add_distrib]
  ring

/-- (ii) over the reals. -/
theorem scale_real {ι : Type*} [Fintype ι] (f g : ι → ℝ) (c : ℝ) :
    (∑ i, f i * (g i * c)) = (∑ i, f i * g i) * c := by
  rw [Finset.sum_mul]
  refine Finset.sum_congr rfl fun i _ => ?_
  ring

/-! ## Finite arrays are coerced real arrays -/

/-- An array all of whose entries are real is the coercion of a real array. -/
theorem Finite.exists_real {S : Shape} {a : FVec Ideal S .f32} (h : Finite a) :
    ∃ r : S.Idx → ℝ, a = fun i => ((r i : ℝ) : EReal) :=
  ⟨fun i => (a i).toReal, funext fun i => (EReal.coe_toReal (h i).1 (h i).2).symm⟩

/-! ## The clip bounds -/

theorem lo_eq : Ideal.ofBits .f32 0x00000000#32 = ((0 : ℝ) : EReal) := by
  simp [Ideal.ofBits, Ideal.ieee]

theorem hi_eq : Ideal.ofBits .f32 0x3F800000#32 = ((1 : ℝ) : EReal) := by
  simp [Ideal.ofBits, Ideal.ieee, -EReal.coe_mul]; norm_num

/-- A clipped value is a real number. -/
theorem clip01_real (h : EReal) : ∃ a : ℝ, clip01 h = (a : EReal) := by
  have hne_top : clip01 h ≠ ⊤ := by
    unfold clip01
    rw [hi_eq]
    exact ne_of_lt (lt_of_le_of_lt (min_le_left _ _) (EReal.coe_lt_top 1))
  have hne_bot : clip01 h ≠ ⊥ := by
    unfold clip01
    rw [hi_eq, lo_eq]
    exact ne_of_gt (lt_min (EReal.bot_lt_coe 1) (lt_of_lt_of_le (EReal.bot_lt_coe 0) (le_max_left _ _)))
  exact ⟨(clip01 h).toReal, (EReal.coe_toReal hne_top hne_bot).symm⟩

/-! ## (i) the selector sum -/

theorem mix_eq (swm : Arr2 8 8) (coeff : Arr1 4096) (i : Fin 8) (n : Fin 4096) :
    mix swm coeff i n = swm (ix2 (grp n) i) * coeff (ix1 n) := by
  unfold mix sel
  simp only [ite_mul, one_mul, zero_mul, mul_ite, mul_zero]
  rw [Finset.sum_ite_eq]
  simp

/-! ## (ii) the activations agree -/

theorem actKer_eq_actRef (x : Arr2 16384 8) (swm : Arr2 8 8) (coeff bias : Arr1 4096)
    (hx : Finite x) (hswm : Finite swm) (hcoeff : Finite coeff) (r : Fin 16384) (n : Fin 4096) :
    actKer x swm coeff bias r n = actRef x swm coeff bias r n := by
  obtain ⟨xr, rfl⟩ := hx.exists_real
  obtain ⟨sr, rfl⟩ := hswm.exists_real
  obtain ⟨cr, rfl⟩ := hcoeff.exists_real
  unfold actKer actRef proj
  simp only [mix_eq]
  congr 2
  simp only [← EReal.coe_mul, ← coe_sum]
  exact congrArg _ (scale_real _ _ _)

/-! ## (iii) the output -/

theorem out_eq (x : Arr2 16384 8) (swm : Arr2 8 8) (coeff bias : Arr1 4096) (W2 : Arr2 64 4096) (b2 : Arr1 64)
    (Wout : Arr2 1 64) (bout : Arr1 1)
    (hx : Finite x) (hswm : Finite swm) (hcoeff : Finite coeff) (hW2 : Finite W2) (hb2 : Finite b2)
    (hWout : Finite Wout) (hbout : Finite bout) (r : Fin 16384) (c : Fin 1) :
    (∑ n : Fin 4096, actKer x swm coeff bias r n * wf W2 Wout n c) + bf b2 Wout bout c
      = (∑ l : Fin 64, ((∑ n : Fin 4096, actRef x swm coeff bias r n * W2 (ix2 l n)) + b2 (ix1 l)) * Wout (ix2 c l))
          + bout (ix1 c) := by
  simp only [actKer_eq_actRef x swm coeff bias hx hswm hcoeff]
  have hact : ∀ n, ∃ a : ℝ, actRef x swm coeff bias r n = (a : EReal) := fun n => clip01_real _
  choose a ha using hact
  obtain ⟨Wr, rfl⟩ := hW2.exists_real
  obtain ⟨br, rfl⟩ := hb2.exists_real
  obtain ⟨wr, rfl⟩ := hWout.exists_real
  obtain ⟨or, rfl⟩ := hbout.exists_real
  unfold wf bf
  simp only [ha, ← EReal.coe_mul, ← coe_sum, ← EReal.coe_add]
  exact congrArg _ (fold_real _ _ _ _ _)

/-- The kernel's arrangement and the reference's arrangement agree on real inputs. -/
theorem kerOut_eq_refOut (x : Arr2 16384 8) (swm : Arr2 8 8) (coeff bias : Arr1 4096) (W2 : Arr2 64 4096)
    (b2 : Arr1 64) (Wout : Arr2 1 64) (bout : Arr1 1)
    (hx : Finite x) (hswm : Finite swm) (hcoeff : Finite coeff) (hbias : Finite bias) (hW2 : Finite W2)
    (hb2 : Finite b2) (hWout : Finite Wout) (hbout : Finite bout) :
    kerOut x swm coeff bias W2 b2 Wout bout = refOut x swm coeff bias W2 b2 Wout bout := by
  funext j
  exact out_eq x swm coeff bias W2 b2 Wout bout hx hswm hcoeff hW2 hb2 hWout hbout (j 0) (j 1)

end Cert.Spec

end
-- ==== Proof.FiniteInputs.lean ====
/-
  Finiteness of the inputs, read back from the stated precondition.

  The precondition evaluates, for each of the eight input arrays a, the elementwise test |a| < +∞, reduces each test
  array by "and" to a single bit, and takes the conjunction of the eight bits; it states that the result is 1.
  Hence every bit is 1, every element passes its test, and an extended real x with max x (-x) < ⊤ is neither ⊤ nor ⊥.
-/
import proofs.«173882_j38946763440762_2_alg».proof.Defs
import proofs.«173882_j38946763440762_2_alg».proof.Proof.Spec
import Idealize.ShloMosaic.Lib.ReduceAll
import Idealize.ShloMosaic.Lib.IdealHost

noncomputable section

namespace Cert.FiniteInputs

open Idealize.ShloMosaic Idealize.ShloMosaic.ValueIdx Idealize.SL.Sem

/-- The rank-0 shape has a single index. -/
instance : Subsingleton (⟨0, ![]⟩ : Shape).Idx := ⟨fun a b => funext fun d => d.elim0⟩

/-- An extended real whose absolute value max x (-x) is below +∞ is a real number. -/
theorem real_of_abs_lt_top (x : EReal) (h : max x (-x) < ⊤) : x ≠ ⊤ ∧ x ≠ ⊥ := by
  constructor
  · rintro rfl
    exact absurd h (by simp)
  · rintro rfl
    exact absurd h (by simp)

/-- The comparison bit of the extended reals is 1 exactly when the strict inequality holds. -/
theorem lt_of_cmp_olt (x y : EReal) (h : Ideal.cmp .olt x y = 1#1) : x < y := by
  by_contra hn
  simp [Ideal.cmp, hn] at h

/-- One input: if the "and"-reduction of the elementwise test |a| < +∞ is 1, every entry of a is real. -/
theorem finite_of_reduce {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (e : Host.reduce IntOp.andi
          (cmpf .olt (Host.absf a)
            (broadcastInDim S ![] hb (constant (F := Ideal) (⟨0, ![]⟩ : Shape) .f32 0x7F800000#32)))
          (constantI (⟨0, ![]⟩ : Shape) 1 1#1) hr hu ix0 = 1#1) :
    Cert.Spec.Finite a := by
  intro i
  have hi := Host.reduce_andi_all _ _ hr hu ix0 e i
  rw [cmpf_apply, broadcastInDim_scalar_apply, constant_apply] at hi
  have htop : Ideal.ofBits .f32 0x7F800000#32 = ⊤ := by simp [Ideal.ofBits, Ideal.ieee]
  rw [htop] at hi
  exact real_of_abs_lt_top (a i) (lt_of_cmp_olt _ _ hi)

/-- The conjunction of two bits at the single index is 1 exactly when both are. -/
theorem andi_ix0 (x y : IVec (⟨0, ![]⟩ : Shape) 1) :
    andi x y ix0 = 1#1 ↔ x ix0 = 1#1 ∧ y ix0 = 1#1 := IntOp.andi_eq_one

/-- The stated precondition over plain arrays gives the finiteness of all eight inputs. -/
theorem finite_of_fn [Cert.Pre_finite_inputs.Facts] (a0 : Cert.Spec.Arr2 16384 8) (a1 : Cert.Spec.Arr2 8 8)
    (a2 a3 : Cert.Spec.Arr1 4096) (a4 : Cert.Spec.Arr2 64 4096) (a5 : Cert.Spec.Arr1 64) (a6 : Cert.Spec.Arr2 1 64)
    (a7 : Cert.Spec.Arr1 1)
    (h : Cert.Pre_finite_inputs.fn (F := Ideal) a0 a1 a2 a3 a4 a5 a6 a7 = (fun _ => 1#1)) :
    Cert.Spec.Finite a0 ∧ Cert.Spec.Finite a1 ∧ Cert.Spec.Finite a2 ∧ Cert.Spec.Finite a3 ∧ Cert.Spec.Finite a4
      ∧ Cert.Spec.Finite a5 ∧ Cert.Spec.Finite a6 ∧ Cert.Spec.Finite a7 := by
  have h0 := congrFun h ix0
  dsimp only [Cert.Pre_finite_inputs.fn, Cert.Pre_finite_inputs.fn_part1, Cert.Pre_finite_inputs.fn_part2] at h0
  obtain ⟨h0, e7⟩ := (andi_ix0 _ _).1 h0
  obtain ⟨h0, e6⟩ := (andi_ix0 _ _).1 h0
  obtain ⟨h0, e5⟩ := (andi_ix0 _ _).1 h0
  obtain ⟨h0, e4⟩ := (andi_ix0 _ _).1 h0
  obtain ⟨h0, e3⟩ := (andi_ix0 _ _).1 h0
  obtain ⟨h0, e2⟩ := (andi_ix0 _ _).1 h0
  obtain ⟨e0, e1⟩ := (andi_ix0 _ _).1 h0
  exact ⟨finite_of_reduce a0 _ _ _ e0, finite_of_reduce a1 _ _ _ e1, finite_of_reduce a2 _ _ _ e2,
    finite_of_reduce a3 _ _ _ e3, finite_of_reduce a4 _ _ _ e4, finite_of_reduce a5 _ _ _ e5,
    finite_of_reduce a6 _ _ _ e6, finite_of_reduce a7 _ _ _ e7⟩

/-- The kernel's precondition gives the finiteness of its eight argument arrays on every device. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Finite (m ((c.tc : Thread Cert.KernelIdeal.nD Cert.KernelIdeal.τ).loc Cert.KernelIdeal.main_arg0))
      ∧ Cert.Spec.Finite (m ((c.tc : Thread Cert.KernelIdeal.nD Cert.KernelIdeal.τ).loc Cert.KernelIdeal.main_arg1))
      ∧ Cert.Spec.Finite (m ((c.tc : Thread Cert.KernelIdeal.nD Cert.KernelIdeal.τ).loc Cert.KernelIdeal.main_arg2))
      ∧ Cert.Spec.Finite (m ((c.tc : Thread Cert.KernelIdeal.nD Cert.KernelIdeal.τ).loc Cert.KernelIdeal.main_arg3))
      ∧ Cert.Spec.Finite (m ((c.tc : Thread Cert.KernelIdeal.nD Cert.KernelIdeal.τ).loc Cert.KernelIdeal.main_arg4))
      ∧ Cert.Spec.Finite (m ((c.tc : Thread Cert.KernelIdeal.nD Cert.KernelIdeal.τ).loc Cert.KernelIdeal.main_arg5))
      ∧ Cert.Spec.Finite (m ((c.tc : Thread Cert.KernelIdeal.nD Cert.KernelIdeal.τ).loc Cert.KernelIdeal.main_arg6))
      ∧ Cert.Spec.Finite (m ((c.tc : Thread Cert.KernelIdeal.nD Cert.KernelIdeal.τ).loc Cert.KernelIdeal.main_arg7)) :=
  finite_of_fn _ _ _ _ _ _ _ _ (h c)

end Cert.FiniteInputs

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.KerPayload.lean ====
/-
  The kernel body's one stored value, read at an index of its [512, 1] block.

  On a point's blocks x (512 rows of the input), M (the folded [8, 4096] matrix), b (the [1, 4096] bias row), w (the folded
  [4096, 1] column) and β (the folded [1, 1] bias), the body stores, at row p and the one column c,
      Σ_n clip01 ((Σ_i x[p,i] · M[i,n]) + b[0,n]) · w[n,c]  +  β[0,c].
  Both matrix products accumulate into a zero array, so each is the plain sum over its contracted axis; the changes of float
  format are the identity on the extended reals; the shape casts are between equal shapes; the two broadcasts read row 0.
-/
import proofs.«173882_j38946763440762_2_alg».proof.Proof.Gen.KernelIdeal.Skeleton
import proofs.«173882_j38946763440762_2_alg».proof.Proof.Spec
import proofs.«173882_j38946763440762_2_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerPayload

open Cert.KernelIdeal Cert.KernelIdeal.Gen Idealize.ShloMosaic Idealize.ShloMosaic.ValueIdx
open Facts₀ Facts

/-- The first product at (p, n): the sum over the 8 contracted positions. -/
theorem mm1_apply (a : FVec Ideal S512x8 .bf16) (b : FVec Ideal S8x4096 .bf16) (p : Fin 512) (n : Fin 4096) :
    matmul (F := Ideal) dot_S512x8_S8x4096_S512x4096_1_0_0_1_n_n none a b (constant S512x4096 .f32 0x00000000#32) (ix2 p n)
      = ∑ i : Fin 8, a (ix2 p i) * b (ix2 i n) := by
  refine (Ideal.matmul_constant_zero_apply dot_S512x8_S8x4096_S512x4096_1_0_0_1_n_n none a b (ix2 p n)).trans ?_
  exact Cert.LibDotSum.sum_contr_eq_sum_fin dot_S512x8_S8x4096_S512x4096_1_0_0_1_n_n rfl rfl
    (fun _ _ => rfl) (fun _ _ => rfl) (fun _ _ => rfl) (fun _ _ => rfl) a b (ix2 p n)

/-- The second product at (p, c): the sum over the 4096 contracted positions. -/
theorem mm2_apply (a : FVec Ideal S512x4096 .bf16) (b : FVec Ideal S4096x1 .bf16) (p : Fin 512) (c : Fin 1) :
    matmul (F := Ideal) dot_S512x4096_S4096x1_S512x1_1_0_0_1_n_n none a b (constant S512x1 .f32 0x00000000#32) (ix2 p c)
      = ∑ n : Fin 4096, a (ix2 p n) * b (ix2 n c) := by
  refine (Ideal.matmul_constant_zero_apply dot_S512x4096_S4096x1_S512x1_1_0_0_1_n_n none a b (ix2 p c)).trans ?_
  exact Cert.LibDotSum.sum_contr_eq_sum_fin dot_S512x4096_S4096x1_S512x1_1_0_0_1_n_n rfl rfl
    (fun _ _ => rfl) (fun _ _ => rfl) (fun _ _ => rfl) (fun _ _ => rfl) a b (ix2 p c)

/-- THE STORED VALUE AT (p, c). -/
theorem pay_apply (x0 : Vec Ideal S512x8 .f32) (x1 : Vec Ideal S8x4096 .bf16) (x2 : Vec Ideal S1x4096 .f32)
    (x3 : Vec Ideal S4096x1 .bf16) (x4 : Vec Ideal S1x1 .f32) (p : Fin 512) (c : Fin 1) :
    k0_pay1 (F := Ideal) x0 x1 x2 x3 x4 (ix2 p c)
      = (∑ n : Fin 4096, Cert.Spec.clip01 ((∑ i : Fin 8, x0 (ix2 p i) * x1 (ix2 i n)) + x2 (ix2 0 n)) * x3 (ix2 n c))
          + x4 (ix2 0 c) := by
  unfold k0_pay1
  simp only [shapeCast_self]
  rw [addf_apply, mm2_apply]
  congr 1
  · refine Finset.sum_congr rfl fun n _ => ?_
    rw [truncf_apply, minimumf_apply, maximumf_apply, addf_apply, mm1_apply]
    simp only [truncf_apply, broadcast_apply]
    rw [broadcastTo_1b_ab_apply]
    rfl
  · rw [broadcastTo_1b_ab_apply]

end Cert.KernelIdeal.KerPayload

end
-- ==== Proof.KerBlocks.lean ====
/-
  From blocks to the whole array: what the kernel's result array holds after the run.

  The grid has 32 points; point t stages rows 512·t … 512·t + 511 of the input and writes back the same rows of the [16384, 1]
  result; the four folded operands are staged whole at every point. The body's stored value at row p of the block is a function
  of row p of the input block alone, so what point t writes back is block t of ONE function `rowNet` of the arrays as the region
  finds them; the 32 blocks tile the result, hence the result array IS that function.
-/
import proofs.«173882_j38946763440762_2_alg».proof.Proof.Gen.KernelIdeal.Value
import proofs.«173882_j38946763440762_2_alg».proof.Proof.KerPayload

noncomputable section

namespace Cert.KernelIdeal.KerBlocks

open Cert.KernelIdeal Cert.KernelIdeal.Gen Idealize.ShloMosaic Idealize.ShloMosaic.TcCoe Idealize.SL.Sem
open Idealize.ShloMosaic.ValueIdx
open Idealize.ShloMosaic.Pipeline (Dat)
open Facts₀ Facts

/-- The network on the staged operands: row r of X against the folded matrix, bias row, clip, folded column, folded bias. -/
def rowNet (X : S16384x8.Idx → EReal) (Mx : S8x4096.Idx → EReal) (Bx : S1x4096.Idx → EReal) (Wx : S4096x1.Idx → EReal)
    (Cx : S1x1.Idx → EReal) : S16384x1.Idx → EReal := fun j =>
  (∑ n : Fin 4096, Cert.Spec.clip01 ((∑ i : Fin 8, X (ix2 (j 0) i) * Mx (ix2 i n)) + Bx (ix2 0 n)) * Wx (ix2 n (j 1)))
    + Cx (ix2 0 (j 1))

/-- The stored value at a general index of the block. -/
theorem pay_at (x0 : Vec Ideal S512x8 .f32) (x1 : Vec Ideal S8x4096 .bf16) (x2 : Vec Ideal S1x4096 .f32)
    (x3 : Vec Ideal S4096x1 .bf16) (x4 : Vec Ideal S1x1 .f32) (y : S512x1.Idx) :
    k0_pay1 (F := Ideal) x0 x1 x2 x3 x4 y
      = (∑ n : Fin 4096, Cert.Spec.clip01 ((∑ i : Fin 8, x0 (ix2 (y 0) i) * x1 (ix2 i n)) + x2 (ix2 0 n)) * x3 (ix2 n (y 1)))
          + x4 (ix2 0 (y 1)) :=
  (congrArg (k0_pay1 (F := Ideal) x0 x1 x2 x3 x4) (eq_ix2 y)).trans (Cert.KernelIdeal.KerPayload.pay_apply x0 x1 x2 x3 x4 (y 0) (y 1))

theorem hz : (![0, 0] : Fin 2 → Nat) = fun _ => 0 := funext fun a => by fin_cases a <;> rfl

/-- The printed index maps over the grid: the input's block row is the output's, which is the point's number; every other
    block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ) (ρ : Dev nD → PrngReg)

/-- Row p of the input's block at point t is row 512·t + p of the input (the output's block has the same rows). -/
theorem blk0_apply (c : Dev nD) (t : Fin cfg0.N) (y : S512x1.Idx) (i : Fin 8) :
    iblk m c 0 t (ix2 (y 0) i) = V m c main_arg0 (ix2 ((((cfg0.win 5).blk t).view.emb y) 0) i) := by
  obtain ⟨e00, e01, -, -, -, -, -, -, -, -, -, -⟩ := idx_facts t
  have hy0 : (y 0).val < 512 := (y 0).isLt
  show V m c main_arg0 (((cfg0.win 0).blk t).view.emb (ix2 (y 0) i)) = _
  refine congrArg (V m c main_arg0) (funext fun a => Fin.ext ?_)
  match a with
  | ⟨0, _⟩ => show win0_0.index t (0 : Fin 2) * 512 + 1 * (y 0).val = win0_5.index t (0 : Fin 2) * 512 + 1 * (y 0).val; omega
  | ⟨1, _⟩ => show win0_0.index t (1 : Fin 2) * 8 + 1 * i.val = i.val; omega

/-- The folded matrix is staged whole: its block is the array. -/
theorem blk1_apply (c : Dev nD) (t : Fin cfg0.N) (i : Fin 8) (n : Fin 4096) :
    iblk m c 1 t (ix2 i n) = V m c main_v14 (ix2 i n) := by
  obtain ⟨-, -, e10, e11, -, -, -, -, -, -, -, -⟩ := idx_facts t
  show V m c main_v14 (((cfg0.win 1).blk t).view.emb (ix2 i n)) = _
  refine congrArg (V m c main_v14) (funext fun a => Fin.ext ?_)
  match a with
  | ⟨0, _⟩ => show win0_1.index t (0 : Fin 2) * 8 + 1 * i.val = i.val; omega
  | ⟨1, _⟩ => show win0_1.index t (1 : Fin 2) * 4096 + 1 * n.val = n.val; omega

/-- The bias row is staged whole. -/
theorem blk2_apply (c : Dev nD) (t : Fin cfg0.N) (n : Fin 4096) :
    iblk m c 2 t (ix2 0 n) = V m c main_v15 (ix2 0 n) := by
  obtain ⟨-, -, -, -, e20, e21, -, -, -, -, -, -⟩ := idx_facts t
  show V m c main_v15 (((cfg0.win 2).blk t).view.emb (ix2 0 n)) = _
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 4096 + 1 * n.val = n.val; omega

/-- The folded column is staged whole; its one column index is the output block's. -/
theorem blk3_apply (c : Dev nD) (t : Fin cfg0.N) (y : S512x1.Idx) (n : Fin 4096) :
    iblk m c 3 t (ix2 n (y 1)) = V m c main_v19 (ix2 n ((((cfg0.win 5).blk t).view.emb y) 1)) := by
  obtain ⟨-, -, -, -, -, -, e30, e31, -, -, -, e51⟩ := idx_facts t
  show V m c main_v19 (((cfg0.win 3).blk t).view.emb (ix2 n (y 1))) = _
  refine congrArg (V m c main_v19) (funext fun a => Fin.ext ?_)
  match a with
  | ⟨0, _⟩ => show win0_3.index t (0 : Fin 2) * 4096 + 1 * n.val = n.val; omega
  | ⟨1, _⟩ => show win0_3.index t (1 : Fin 2) * 1 + 1 * (y 1).val = win0_5.index t (1 : Fin 2) * 1 + 1 * (y 1).val; omega

/-- The folded bias is staged whole. -/
theorem blk4_apply (c : Dev nD) (t : Fin cfg0.N) (y : S512x1.Idx) :
    iblk m c 4 t (ix2 0 (y 1)) = V m c main_v23 (ix2 0 ((((cfg0.win 5).blk t).view.emb y) 1)) := by
  obtain ⟨-, -, -, -, -, -, -, -, e40, e41, -, e51⟩ := idx_facts t
  show V m c main_v23 (((cfg0.win 4).blk t).view.emb (ix2 0 (y 1))) = _
  refine congrArg (V m c main_v23) (funext fun a => Fin.ext ?_)
  match a with
  | ⟨0, _⟩ => show win0_4.index t (0 : Fin 2) * 1 + 1 * 0 = 0; omega
  | ⟨1, _⟩ => show win0_4.index t (1 : Fin 2) * 1 + 1 * (y 1).val = win0_5.index t (1 : Fin 2) * 1 + 1 * (y 1).val; omega

set_option maxHeartbeats 1600000 in
/-- WHAT POINT t WRITES BACK is block t of `rowNet` of the arrays as the region finds them. -/
theorem flushed_eq (c : Dev nD) (t : Fin cfg0.N) :
    (dats m 0 c).flushed 5 t = ((cfg0.win 5).blk t).view.read (Elt Ideal)
      (rowNet (V m c main_arg0) (V m c main_v14) (V m c main_v15) (V m c main_v19) (V m c main_v23)) := by
  show (cfg0.win 5).cut (grid0.coords t) ((dats m 0 c).after 5 t) = _
  rw [after0_5]
  unfold out0_5
  rw [View.canon_unit_zero hz]
  simp only [View.ld_unit_zero (S := S512x8) hz, View.ld_unit_zero (S := S8x4096) hz, View.ld_unit_zero (S := S1x4096) hz,
    View.ld_unit_zero (S := S4096x1) hz, View.ld_unit_zero (S := S1x1) hz]
  funext y
  show k0_pay1 (F := Ideal) (iblk m c 0 t) (iblk m c 1 t) (iblk m c 2 t) (iblk m c 3 t) (iblk m c 4 t) y
    = rowNet (V m c main_arg0) (V m c main_v14) (V m c main_v15) (V m c main_v19) (V m c main_v23) (((cfg0.win 5).blk t).view.emb y)
  refine (pay_at (iblk m c 0 t) (iblk m c 1 t) (iblk m c 2 t) (iblk m c 3 t) (iblk m c 4 t) y).trans ?_
  exact congrArg₂ (· + ·)
    (Finset.sum_congr rfl fun n _ => congrArg₂ (· * ·)
      (congrArg Cert.Spec.clip01 (congrArg₂ (· + ·)
        (Finset.sum_congr rfl fun i _ => congrArg₂ (· * ·) (blk0_apply m c t y i) (blk1_apply m c t i n))
        (blk2_apply m c t n)))
      (blk3_apply m c t y n))
    (blk4_apply m c t y)

/-- An index of the result is in point t's block iff its row is among the block's 512 rows. -/
theorem mem_blk (t : Fin cfg0.N) (i : S16384x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v24).slice (win0_5.rect t)).set ↔ _
  rw [View.set_slice_whole, Rect.mem_set_unit]
  exact Iff.rfl

/-- The 32 blocks cover the result: row r lies in the block of point r / 512. -/
theorem cover (i : S16384x1.Idx) : ∃ t : Fin cfg0.N, (cfg0.win 5).flush t = true ∧ i ∈ ((cfg0.win 5).blk t).view.set := by
  have hi0 : (i 0).val < 16384 := (i 0).isLt
  have hi1 : (i 1).val < 1 := (i 1).isLt
  let t : Fin cfg0.N := ⟨(i 0).val / 512, by show (i 0).val / 512 < 32; omega⟩
  obtain ⟨-, -, -, -, -, -, -, -, -, -, e50, e51⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-- THE RESULT ARRAY after the run. -/
theorem final (c : Dev nD) : (dats m 0 c).arrAt 5 cfg0.N
    = rowNet (V m c main_arg0) (V m c main_v14) (V m c main_v15) (V m c main_v19) (V m c main_v23) :=
  (dats m 0 c).arrAt_eq_of_cover 5 _ (fun t _ => flushed_eq m c t) cover

end Cert.KernelIdeal.KerBlocks

end
-- ==== Proof.Group.lean ====
/-
  The group of a hidden unit as both programs compute it: the integer chain
  floor_divide(iota(4096), 512), i.e. truncating division corrected by one where the signs of dividend
  and divisor differ and the remainder is not zero.  On the indices 0 … 4095 and the positive divisor 512
  the correction never fires and the chain is  n ↦ n / 512.
-/
import Idealize.ShloMosaic.PureOps
import Idealize.ShloMosaic.Lib.ValueIdx
import proofs.«173882_j38946763440762_2_alg».proof.Proof.Spec

namespace Cert.Group

open Idealize.ShloMosaic Idealize.ShloMosaic.ValueIdx

/-- The chain of integer operations, on whole arrays: floor division of the index vector by 512. -/
def groupVec (hb : (⟨0, ![]⟩ : Shape).BroadcastsInDim (⟨1, ![4096]⟩ : Shape) (![] : Fin 0 → Fin 1)) :
    IVec (⟨1, ![4096]⟩ : Shape) 32 :=
  let a : IVec (⟨1, ![4096]⟩ : Shape) 32 := iotaInDim (⟨1, ![4096]⟩ : Shape) 32 0
  let c : IVec (⟨0, ![]⟩ : Shape) 32 := constantI (⟨0, ![]⟩ : Shape) 32 512#32
  let v0 : IVec (⟨0, ![]⟩ : Shape) 32 := id c
  let v1 : IVec (⟨1, ![4096]⟩ : Shape) 32 := broadcastInDim (⟨1, ![4096]⟩ : Shape) ![] hb v0
  let v2 : IVec (⟨1, ![4096]⟩ : Shape) 32 := Host.divsi a v1
  let v3 : IVec (⟨1, ![4096]⟩ : Shape) 32 := signi a
  let v4 : IVec (⟨0, ![]⟩ : Shape) 32 := signi v0
  let v5 : IVec (⟨1, ![4096]⟩ : Shape) 32 := broadcastInDim (⟨1, ![4096]⟩ : Shape) ![] hb v4
  let v6 : IVec (⟨1, ![4096]⟩ : Shape) 1 := cmpi .ne v3 v5
  let v7 : IVec (⟨1, ![4096]⟩ : Shape) 32 := broadcastInDim (⟨1, ![4096]⟩ : Shape) ![] hb v0
  let v8 : IVec (⟨1, ![4096]⟩ : Shape) 32 := Host.remsi a v7
  let v9 : IVec (⟨1, ![4096]⟩ : Shape) 32 :=
    broadcastInDim (⟨1, ![4096]⟩ : Shape) ![] hb (constantI (⟨0, ![]⟩ : Shape) 32 0#32)
  let v10 : IVec (⟨1, ![4096]⟩ : Shape) 1 := cmpi .ne v8 v9
  let v11 : IVec (⟨1, ![4096]⟩ : Shape) 1 := andi v6 v10
  let v12 : IVec (⟨1, ![4096]⟩ : Shape) 32 :=
    broadcastInDim (⟨1, ![4096]⟩ : Shape) ![] hb (constantI (⟨0, ![]⟩ : Shape) 32 1#32)
  let v13 : IVec (⟨1, ![4096]⟩ : Shape) 32 := subi v2 v12
  select v11 v13 v2

/-- The sign of a 32-bit word read signed: 0, -1 or 1. -/
def signWord (x : BitVec 32) : BitVec 32 := if x = 0 then 0 else if x.msb then -1 else 1

/-- The same chain on one 32-bit word. -/
def groupWord (a : BitVec 32) : BitVec 32 :=
  Scalar.select
    (IntOp.andi
      (IntOp.cmpi .ne (signWord a) (signWord 512#32))
      (IntOp.cmpi .ne (IntOp.remsi .host a 512#32) 0#32))
    (IntOp.subi (IntOp.divsi .host a 512#32) 1#32)
    (IntOp.divsi .host a 512#32)

theorem groupVec_eq_word (hb : (⟨0, ![]⟩ : Shape).BroadcastsInDim (⟨1, ![4096]⟩ : Shape) (![] : Fin 0 → Fin 1))
    (n : Fin 4096) : groupVec hb (ix1 n) = groupWord (BitVec.ofNat 32 n.val) := rfl

theorem groupWord_all : ∀ n : Fin 4096, groupWord (BitVec.ofNat 32 n.val) = BitVec.ofNat 32 (n.val / 512) := by
  decide +kernel

/-- The chain evaluated: hidden unit `n` is in group `n / 512`. -/
theorem groupVec_apply (hb : (⟨0, ![]⟩ : Shape).BroadcastsInDim (⟨1, ![4096]⟩ : Shape) (![] : Fin 0 → Fin 1))
    (n : Fin 4096) : groupVec hb (ix1 n) = BitVec.ofNat 32 (Cert.Spec.grp n).val :=
  (groupVec_eq_word hb n).trans (groupWord_all n)

end Cert.Group
-- ==== Proof.KerHost.lean ====
/-
  The kernel's host prefix: what the four folded operands hold when the region is entered.

  Before its one region the kernel's @main computes, from the argument arrays,
    the folded first-layer matrix   M[i,n] = Σ_j swmᵀ[i,j] · (sel[j,n] · coeff[n]),   sel[j,n] = 1 if unit n is in group j, else 0,
    the bias row                    b[0,n] = bias[n],
    the folded column               w[n,q] = Σ_l W2ᵀ[n,l] · Woutᵀ[l,q],
    the folded bias                 β[0,q] = (Σ_l b2[l] · Woutᵀ[l,q]) + bout[q].
  On the extended reals each product is the plain sum over its contracted axis, a change of float format is the identity, and
  reshapes, transposes and broadcasts only re-index. The selector compares the group word of unit n (the integer chain's closed
  form, n / 512) with the index word of row j; two such words below 8 are equal exactly when the indices are, and the resulting
  bit read as a number is 1 or 0.
-/
import proofs.«173882_j38946763440762_2_alg».proof.Proof.Gen.KernelIdeal.Frame
import proofs.«173882_j38946763440762_2_alg».proof.Proof.Spec
import proofs.«173882_j38946763440762_2_alg».proof.Proof.LibDotSum
import proofs.«173882_j38946763440762_2_alg».proof.Proof.Group
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.KerHost

open Cert.KernelIdeal Cert.KernelIdeal.Gen Idealize.ShloMosaic Idealize.ShloMosaic.TcCoe Idealize.ShloMosaic.ValueIdx Idealize.SL.Sem
open Idealize.ShloMosaic.StableHlo
open Facts₀ Facts

variable (m : (ℓ : Loc nD τ sig) → Buf (Elt Ideal) ℓ)

/-! ## The three host products, each the plain sum over its contracted axis -/

theorem dotW_apply (a : FVec Ideal S4096x64 .f32) (b : FVec Ideal S64x1 .f32) (n : Fin 4096) (q : Fin 1) :
    Host.dotGeneral (F := Ideal) dot_S4096x64_S64x1_S4096x1_1_0_0_1_n_n (some .fp32) a b (ix2 n q)
      = ∑ l : Fin 64, a (ix2 n l) * b (ix2 l q) := by
  refine (Ideal.dotGeneral_apply dot_S4096x64_S64x1_S4096x1_1_0_0_1_n_n (some .fp32) .single a b (ix2 n q)).trans ?_
  exact Cert.LibDotSum.sum_contr_eq_sum_fin dot_S4096x64_S64x1_S4096x1_1_0_0_1_n_n rfl rfl
    (fun _ _ => rfl) (fun _ _ => rfl) (fun _ _ => rfl) (fun _ _ => rfl) a b (ix2 n q)

theorem dotB_apply (a : FVec Ideal S1x64 .f32) (b : FVec Ideal S64x1 .f32) (p : Fin 1) (q : Fin 1) :
    Host.dotGeneral (F := Ideal) dot_S1x64_S64x1_S1x1_1_0_0_1_n_n (some .fp32) a b (ix2 p q)
      = ∑ l : Fin 64, a (ix2 p l) * b (ix2 l q) := by
  refine (Ideal.dotGeneral_apply dot_S1x64_S64x1_S1x1_1_0_0_1_n_n (some .fp32) .single a b (ix2 p q)).trans ?_
  exact Cert.LibDotSum.sum_contr_eq_sum_fin dot_S1x64_S64x1_S1x1_1_0_0_1_n_n rfl rfl
    (fun _ _ => rfl) (fun _ _ => rfl) (fun _ _ => rfl) (fun _ _ => rfl) a b (ix2 p q)

theorem dotM_apply (a : FVec Ideal S8x8 .f32) (b : FVec Ideal S8x4096 .f32) (i : Fin 8) (n : Fin 4096) :
    Host.dotGeneral (F := Ideal) dot_S8x8_S8x4096_S8x4096_1_0_0_1_n_n (some .fp32) a b (ix2 i n)
      = ∑ j : Fin 8, a (ix2 i j) * b (ix2 j n) := by
  refine (Ideal.dotGeneral_apply dot_S8x8_S8x4096_S8x4096_1_0_0_1_n_n (some .fp32) .single a b (ix2 i n)).trans ?_
  exact Cert.LibDotSum.sum_contr_eq_sum_fin dot_S8x8_S8x4096_S8x4096_1_0_0_1_n_n rfl rfl
    (fun _ _ => rfl) (fun _ _ => rfl) (fun _ _ => rfl) (fun _ _ => rfl) a b (ix2 i n)

/-! ## The folded column, the folded bias and the bias row over plain arrays -/

/-- The folded column: the product of the two transposed weight arrays, the change of format being the identity. -/
theorem wfTerm_apply (W2 : FVec Ideal S64x4096 .f32) (Wout : FVec Ideal S1x64 .f32)
    (h1 : S64x4096.Transposes [1, 0] S4096x64) (h2 : S1x64.Transposes [1, 0] S64x1) (hb : FTy.bf16.bits < FTy.f32.bits)
    (n : Fin 4096) (q : Fin 1) :
    (truncf .bf16 (Host.dotGeneral (F := Ideal) dot_S4096x64_S64x1_S4096x1_1_0_0_1_n_n (some .fp32)
        (transpose S4096x64 [1, 0] W2 h1) (transpose S64x1 [1, 0] Wout h2)) hb : FVec Ideal S4096x1 .bf16) (ix2 n q)
      = Cert.Spec.wf W2 Wout n q := by
  rw [truncf_apply, dotW_apply]
  unfold Cert.Spec.wf
  refine Finset.sum_congr rfl fun l _ => ?_
  rw [transpose_ix2_apply, transpose_ix2_apply]

/-- The folded bias: the reshaped second bias against the transposed output weights, plus the reshaped output bias. -/
theorem bfTerm_apply (b2 : FVec Ideal S64 .f32) (Wout : FVec Ideal S1x64 .f32) (bout : FVec Ideal S1 .f32)
    (h1 : S64.ShapeCasts S1x64) (h2 : S1x64.Transposes [1, 0] S64x1) (h3 : S1.ShapeCasts S1x1) (q : Fin 1) :
    addf (Host.dotGeneral (F := Ideal) dot_S1x64_S64x1_S1x1_1_0_0_1_n_n (some .fp32)
        (shapeCast S1x64 b2 h1) (transpose S64x1 [1, 0] Wout h2)) (shapeCast S1x1 bout h3) (ix2 (0 : Fin 1) q)
      = Cert.Spec.bf b2 Wout bout q := by
  rw [addf_apply, dotB_apply, shapeCast_a_1a_apply]
  unfold Cert.Spec.bf
  congr 1
  refine Finset.sum_congr rfl fun l _ => ?_
  rw [shapeCast_a_1a_apply, transpose_ix2_apply]

/-! ## The folded first-layer matrix over plain arrays -/

/-- Two index words below 8 compare equal exactly when the indices are equal. -/
theorem cmp_words : ∀ a b : Fin 8,
    IntOp.cmpi .eq (BitVec.ofNat 32 a.val) (BitVec.ofNat 32 b.val) = if a = b then 1#1 else 0#1 := by
  decide

/-- The selector entry: the unit's group word compared with the row's index word, the bit read as a number. -/
theorem selWord (a b : Fin 8) :
    (FloatOps.uitofp (F := Ideal) .f32 (IntOp.cmpi .eq (BitVec.ofNat 32 a.val) (BitVec.ofNat 32 b.val)) : EReal)
      = if a = b then 1 else 0 := by
  rw [cmp_words]
  by_cases h : a = b
  · rw [if_pos h, if_pos h]
    show (((1#1 : BitVec 1).toNat : ℝ) : EReal) = 1
    simp
  · rw [if_neg h, if_neg h]
    show (((0#1 : BitVec 1).toNat : ℝ) : EReal) = 0
    simp

/-- The selector array at (j, n): the group vector along the columns against the row index along the rows. -/
theorem selTerm_apply (g : IVec S4096 32) (hg : ∀ n : Fin 4096, g (ix1 n) = BitVec.ofNat 32 (Cert.Spec.grp n).val)
    (h1 : S4096.BroadcastsInDim S1x4096 ![1]) (h2 : S1x4096.BroadcastsInDim S8x4096 ![0, 1])
    (h3 : S8.BroadcastsInDim S8x1 ![0]) (h4 : S8x1.BroadcastsInDim S8x4096 ![0, 1]) (j : Fin 8) (n : Fin 4096) :
    (uitofp .f32 (cmpi .eq (broadcastInDim S8x4096 ![0, 1] h2 (broadcastInDim S1x4096 ![1] h1 g))
        (broadcastInDim S8x4096 ![0, 1] h4 (broadcastInDim S8x1 ![0] h3 (iotaInDim S8 32 0)))) : FVec Ideal S8x4096 .f32)
      (ix2 j n) = Cert.Spec.sel j n := by
  have e1 : broadcastInDim S8x4096 ![0, 1] h2 (broadcastInDim S1x4096 ![1] h1 g) (ix2 j n)
      = BitVec.ofNat 32 (Cert.Spec.grp n).val := by
    rw [broadcastInDim_apply ![0, 1] h2 _ (ix2 j n) (ix2 (0 : Fin 1) n)
        (fun a => match a with | ⟨0, _⟩ => rfl | ⟨1, _⟩ => rfl),
      broadcastInDim_apply ![1] h1 g (ix2 (0 : Fin 1) n) (ix1 n) (fun a => match a with | ⟨0, _⟩ => rfl), hg n]
  have e2 : broadcastInDim S8x4096 ![0, 1] h4 (broadcastInDim S8x1 ![0] h3 (iotaInDim S8 32 0)) (ix2 j n)
      = BitVec.ofNat 32 j.val := by
    rw [broadcastInDim_apply ![0, 1] h4 _ (ix2 j n) (ix2 j (0 : Fin 1))
        (fun a => match a with | ⟨0, _⟩ => rfl | ⟨1, _⟩ => rfl),
      broadcastInDim_apply ![0] h3 _ (ix2 j (0 : Fin 1)) (ix1 j) (fun a => match a with | ⟨0, _⟩ => rfl)]
    rfl
  show FloatOps.uitofp (F := Ideal) .f32 (IntOp.cmpi .eq
      (broadcastInDim S8x4096 ![0, 1] h2 (broadcastInDim S1x4096 ![1] h1 g) (ix2 j n))
      (broadcastInDim S8x4096 ![0, 1] h4 (broadcastInDim S8x1 ![0] h3 (iotaInDim S8 32 0)) (ix2 j n))) = _
  rw [e1, e2, selWord]
  rfl

/-- The scale row broadcast down the rows reads the scale vector. -/
theorem coeffTerm_apply (coeff : FVec Ideal S4096 .f32) (h1 : S4096.ShapeCasts S1x4096)
    (h2 : S1x4096.BroadcastsInDim S8x4096 ![0, 1]) (j : Fin 8) (n : Fin 4096) :
    broadcastInDim S8x4096 ![0, 1] h2 (shapeCast S1x4096 coeff h1) (ix2 j n) = coeff (ix1 n) := by
  rw [broadcastInDim_apply ![0, 1] h2 _ (ix2 j n) (ix2 (0 : Fin 1) n)
      (fun a => match a with | ⟨0, _⟩ => rfl | ⟨1, _⟩ => rfl), shapeCast_a_1a_apply]

/-- The folded matrix: the transposed group weights against the scaled selector, the change of format the identity. -/
theorem mixTerm_apply (swm : FVec Ideal S8x8 .f32) (coeff : FVec Ideal S4096 .f32) (g : IVec S4096 32)
    (hg : ∀ n : Fin 4096, g (ix1 n) = BitVec.ofNat 32 (Cert.Spec.grp n).val)
    (ht : S8x8.Transposes [1, 0] S8x8)
    (h1 : S4096.BroadcastsInDim S1x4096 ![1]) (h2 : S1x4096.BroadcastsInDim S8x4096 ![0, 1])
    (h3 : S8.BroadcastsInDim S8x1 ![0]) (h4 : S8x1.BroadcastsInDim S8x4096 ![0, 1])
    (h5 : S4096.ShapeCasts S1x4096) (h6 : S1x4096.BroadcastsInDim S8x4096 ![0, 1]) (hb : FTy.bf16.bits < FTy.f32.bits)
    (i : Fin 8) (n : Fin 4096) :
    (truncf .bf16 (Host.dotGeneral (F := Ideal) dot_S8x8_S8x4096_S8x4096_1_0_0_1_n_n (some .fp32)
        (transpose S8x8 [1, 0] swm ht)
        (mulf (uitofp .f32 (cmpi .eq (broadcastInDim S8x4096 ![0, 1] h2 (broadcastInDim S1x4096 ![1] h1 g))
            (broadcastInDim S8x4096 ![0, 1] h4 (broadcastInDim S8x1 ![0] h3 (iotaInDim S8 32 0)))))
          (broadcastInDim S8x4096 ![0, 1] h6 (shapeCast S1x4096 coeff h5)))) hb : FVec Ideal S8x4096 .bf16) (ix2 i n)
      = Cert.Spec.mix swm coeff i n := by
  rw [truncf_apply, dotM_apply]
  unfold Cert.Spec.mix
  refine Finset.sum_congr rfl fun j _ => ?_
  rw [transpose_ix2_apply, mulf_apply, selTerm_apply g hg, coeffTerm_apply]

/-! ## The buffers as the region finds them -/

/-- The bias row: the second argument vector reshaped to one row. -/
theorem V15_apply (c : Dev nD) (n : Fin 4096) :
    V m c main_v15 (ix2 (0 : Fin 1) n) = m ((c : Thread nD τ).loc main_arg3) (ix1 n) := by
  dsimp only [V]
  simp only [hostOps0, hostOps0_1, hostOps0_2, List.flatten_cons, List.flatten_nil, List.append_nil, List.cons_append,
    List.nil_append]
  after_results
  exact shapeCast_a_1a_apply (α := EReal) (m ((c : Thread nD τ).loc main_arg3)) _ 0 n

/-- The folded column. -/
theorem V19_apply (c : Dev nD) (n : Fin 4096) (q : Fin 1) :
    V m c main_v19 (ix2 n q)
      = Cert.Spec.wf (m ((c : Thread nD τ).loc main_arg4)) (m ((c : Thread nD τ).loc main_arg6)) n q := by
  dsimp only [V]
  simp only [hostOps0, hostOps0_1, hostOps0_2, List.flatten_cons, List.flatten_nil, List.append_nil, List.cons_append,
    List.nil_append]
  after_results
  exact wfTerm_apply (m ((c : Thread nD τ).loc main_arg4)) (m ((c : Thread nD τ).loc main_arg6)) _ _ _ n q

set_option maxHeartbeats 2000000 in
/-- The folded bias. -/
theorem V23_apply (c : Dev nD) (q : Fin 1) :
    V m c main_v23 (ix2 (0 : Fin 1) q)
      = Cert.Spec.bf (m ((c : Thread nD τ).loc main_arg5)) (m ((c : Thread nD τ).loc main_arg6))
          (m ((c : Thread nD τ).loc main_arg7)) q := by
  dsimp only [V]
  simp only [hostOps0, hostOps0_1, hostOps0_2, List.flatten_cons, List.flatten_nil, List.append_nil, List.cons_append,
    List.nil_append]
  after_results
  exact bfTerm_apply (m ((c : Thread nD τ).loc main_arg5)) (m ((c : Thread nD τ).loc main_arg6))
    (m ((c : Thread nD τ).loc main_arg7)) _ _ _ q

set_option maxHeartbeats 4000000 in
/-- The folded first-layer matrix. -/
theorem V14_apply (c : Dev nD) (i : Fin 8) (n : Fin 4096) :
    V m c main_v14 (ix2 i n)
      = Cert.Spec.mix (m ((c : Thread nD τ).loc main_arg1)) (m ((c : Thread nD τ).loc main_arg2)) i n := by
  dsimp only [V]
  simp only [hostOps0, hostOps0_1, hostOps0_2, List.flatten_cons, List.flatten_nil, List.append_nil, List.cons_append,
    List.nil_append]
  after_results
  exact mixTerm_apply (m ((c : Thread nD τ).loc main_arg1)) (m ((c : Thread nD τ).loc main_arg2))
    (Cert.Group.groupVec Gen.bcast_S_S4096) (Cert.Group.groupVec_apply Gen.bcast_S_S4096) _ _ _ _ _ _ _ _ i n

end Cert.KernelIdeal.KerHost

end
-- ==== Proof.KerValue.lean ====
/-
  The kernel's run, read: its result array ends at the network in the kernel's arrangement, a function of the argument
  arrays alone. The staged operands are the host prefix's folds of the arguments (the folded matrix, the bias row, the folded
  column, the folded bias), and the result array is the row network over them.
-/
import proofs.«173882_j38946763440762_2_alg».proof.Proof.Gen.KernelIdeal.Value
import proofs.«173882_j38946763440762_2_alg».proof.Proof.KerBlocks
import proofs.«173882_j38946763440762_2_alg».proof.Proof.KerHost

noncomputable section

namespace Cert.KernelIdeal.KerValue

open Cert.KernelIdeal Cert.KernelIdeal.Gen Idealize.ShloMosaic Idealize.ShloMosaic.TcCoe Idealize.SL.Sem
open Idealize.ShloMosaic.ValueIdx
open Facts₀ Facts

variable (m : (ℓ : Loc nD τ sig) → Buf (Elt Ideal) ℓ) (ρ : Dev nD → PrngReg)

/-- The row network over operands that are, entry by entry, the input, the folded matrix, the bias row, the folded column and
    the folded bias of eight argument arrays is the specification's kernel arrangement of those arguments. -/
theorem rowNet_of_entries (X : S16384x8.Idx → EReal) (Mx : S8x4096.Idx → EReal) (Bx : S1x4096.Idx → EReal)
    (Wx : S4096x1.Idx → EReal) (Cx : S1x1.Idx → EReal)
    (x : Cert.Spec.Arr2 16384 8) (swm : Cert.Spec.Arr2 8 8) (coeff bias : Cert.Spec.Arr1 4096) (W2 : Cert.Spec.Arr2 64 4096)
    (b2 : Cert.Spec.Arr1 64) (Wout : Cert.Spec.Arr2 1 64) (bout : Cert.Spec.Arr1 1)
    (hX : X = x)
    (hM : ∀ (i : Fin 8) (n : Fin 4096), Mx (ix2 i n) = Cert.Spec.mix swm coeff i n)
    (hB : ∀ n : Fin 4096, Bx (ix2 (0 : Fin 1) n) = bias (ix1 n))
    (hW : ∀ (n : Fin 4096) (q : Fin 1), Wx (ix2 n q) = Cert.Spec.wf W2 Wout n q)
    (hC : ∀ q : Fin 1, Cx (ix2 (0 : Fin 1) q) = Cert.Spec.bf b2 Wout bout q) :
    Cert.KernelIdeal.KerBlocks.rowNet X Mx Bx Wx Cx = Cert.Spec.kerOut x swm coeff bias W2 b2 Wout bout := by
  subst hX
  funext j
  unfold Cert.KernelIdeal.KerBlocks.rowNet Cert.Spec.kerOut Cert.Spec.actKer
  rw [hC (j 1)]
  congr 1
  refine Finset.sum_congr rfl fun n _ => ?_
  rw [hW n (j 1), hB n]
  congr 2
  congr 1
  refine Finset.sum_congr rfl fun i _ => ?_
  rw [hM i n]

/-- The row network over the staged operands is the specification's kernel arrangement of the arguments. -/
theorem rowNet_eq (c : Dev nD) :
    Cert.KernelIdeal.KerBlocks.rowNet (V m c main_arg0) (V m c main_v14) (V m c main_v15) (V m c main_v19) (V m c main_v23)
      = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  rowNet_of_entries (V m c main_arg0) (V m c main_v14) (V m c main_v15) (V m c main_v19) (V m c main_v23)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (V_main_arg0 m c) (Cert.KernelIdeal.KerHost.V14_apply m c) (Cert.KernelIdeal.KerHost.V15_apply m c)
    (Cert.KernelIdeal.KerHost.V19_apply m c) (Cert.KernelIdeal.KerHost.V23_apply m c)

/-- Every weakly fair execution of the kernel's program terminates with the result array at the kernel arrangement of the
    arguments, the arguments unchanged. -/
theorem run : θ_run (defs (F := Ideal)) (onTc (τ := τ) (main (F := Ideal))) ⟨m, fun _ => 0, ρ⟩ fun r => ∀ c : Dev nD,
      r.2.mem ((c : Thread nD τ).loc main_v24) = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((Cert.KernelIdeal.KerBlocks.final m c).trans (rowNet_eq m c)), (h c).2⟩)
    (Cert.KernelIdeal.Value.run_blocks m ρ)

end Cert.KernelIdeal.KerValue

end
-- ==== Proof.RefRun.lean ====
/-
  The reference program's @main as a straight line of host operations, and its run: @main calls three
  module-local functions (floor_divide, which calls _where, and clip); a call means the callee's body on the
  operands, so with the bodies unfolded at their call sites and the calls' buffer records at their fields,
  @main is one chain of 51 operations, and every buffer ends at the operations' fold over the launch contents.
-/
import proofs.«173882_j38946763440762_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 51 operations in order, the calls unfolded: the index vector and the divisor, floor_divide's
    sixteen and _where's select (the group of each hidden unit), the first product, the wrapped gather index, the
    gather, the scale and the bias, the two clip bounds, clip's six, the two affine layers. -/
abbrev ops : List (HloOp τ sig (Elt F)) :=
  [ nullary main_v0 (iotaInDim S4096 32 0),
    nullary main_c (constantI S_ 32 512#32),
    TRef.unary (.of main_c) main_call0.v0 id,
    TRef.unary main_call0.v0 main_call0.v1 (broadcastInDim S4096 ![] bcast_S_S4096),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v0) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    binary main_arg0 main_arg1 main_v2 ((fun l r => Host.dotGeneral dot_S16384x8_S8x8_S16384x8_1_1_0_0_n_n none l r) : (⟨S16384x8, .f32⟩ : BufTy).Contents (Elt F) → (⟨S8x8, .f32⟩ : BufTy).Contents (Elt F) → (⟨S16384x8, .f32⟩ : BufTy).Contents (Elt F)),
    nullary main_c_0 (constantI S_ 32 0#32),
    unary main_c_0 main_v3 (broadcastInDim S4096 ![] bcast_S_S4096 : (⟨S_, .i32⟩ : BufTy).Contents (Elt F) → (⟨S4096, .i32⟩ : BufTy).Contents (Elt F)),
    binary main_v1 main_v3 main_v4 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8#32),
    unary main_c_1 main_v5 (broadcastInDim S4096 ![] bcast_S_S4096 : (⟨S_, .i32⟩ : BufTy).Contents (Elt F) → (⟨S4096, .i32⟩ : BufTy).Contents (Elt F)),
    binary main_v1 main_v5 main_v6 (addi : (⟨S4096, .i32⟩ : BufTy).Contents (Elt F) → (⟨S4096, .i32⟩ : BufTy).Contents (Elt F) → (⟨S4096, .i32⟩ : BufTy).Contents (Elt F)),
    ternary main_v4 main_v6 main_v1 main_v7 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v7 main_v8 (broadcastInDim S4096x1 ![0] bcast_S4096_S4096x1_0 : (⟨S4096, .i32⟩ : BufTy).Contents (Elt F) → (⟨S4096x1, .i32⟩ : BufTy).Contents (Elt F)),
    binary main_v2 main_v8 main_v9 ((fun x i => Host.gather gather_S16384x8_S4096x1_S16384x4096_0_1_n_n_1_1_163841 x i) : (⟨S16384x8, .f32⟩ : BufTy).Contents (Elt F) → (⟨S4096x1, .i32⟩ : BufTy).Contents (Elt F) → (⟨S16384x4096, .f32⟩ : BufTy).Contents (Elt F)),
    unary main_arg2 main_v10 (broadcastInDim S1x4096 ![1] bcast_S4096_S1x4096_1 : (⟨S4096, .f32⟩ : BufTy).Contents (Elt F) → (⟨S1x4096, .f32⟩ : BufTy).Contents (Elt F)),
    unary main_v10 main_v11 (broadcastInDim S16384x4096 ![0, 1] bcast_S1x4096_S16384x4096_0_1 : (⟨S1x4096, .f32⟩ : BufTy).Contents (Elt F) → (⟨S16384x4096, .f32⟩ : BufTy).Contents (Elt F)),
    binary main_v9 main_v11 main_v12 (mulf : (⟨S16384x4096, .f32⟩ : BufTy).Contents (Elt F) → (⟨S16384x4096, .f32⟩ : BufTy).Contents (Elt F) → (⟨S16384x4096, .f32⟩ : BufTy).Contents (Elt F)),
    unary main_arg3 main_v13 (broadcastInDim S1x4096 ![1] bcast_S4096_S1x4096_1 : (⟨S4096, .f32⟩ : BufTy).Contents (Elt F) → (⟨S1x4096, .f32⟩ : BufTy).Contents (Elt F)),
    unary main_v13 main_v14 (broadcastInDim S16384x4096 ![0, 1] bcast_S1x4096_S16384x4096_0_1 : (⟨S1x4096, .f32⟩ : BufTy).Contents (Elt F) → (⟨S16384x4096, .f32⟩ : BufTy).Contents (Elt F)),
    binary main_v12 main_v14 main_v15 (addf : (⟨S16384x4096, .f32⟩ : BufTy).Contents (Elt F) → (⟨S16384x4096, .f32⟩ : BufTy).Contents (Elt F) → (⟨S16384x4096, .f32⟩ : BufTy).Contents (Elt F)),
    nullary main_cst (constant S_ .f32 0x00000000#32),
    nullary main_cst_2 (constant S_ .f32 0x3F800000#32),
    TRef.unary (.of main_cst) main_call1.v0 id,
    TRef.unary main_call1.v0 main_call1.v1 (broadcastInDim S16384x4096 ![] bcast_S_S16384x4096),
    TRef.binary main_call1.v1 (.of main_v15) main_call1.v2 maximumf,
    TRef.unary (.of main_cst_2) main_call1.v3 id,
    TRef.unary main_call1.v3 main_call1.v4 (broadcastInDim S16384x4096 ![] bcast_S_S16384x4096),
    TRef.binary main_call1.v4 main_call1.v2 main_call1.v5 minimumf,
    binary main_v16 main_arg4 main_v17 ((fun l r => Host.dotGeneral dot_S16384x4096_S64x4096_S16384x64_1_1_0_0_n_n none l r) : (⟨S16384x4096, .f32⟩ : BufTy).Contents (Elt F) → (⟨S64x4096, .f32⟩ : BufTy).Contents (Elt F) → (⟨S16384x64, .f32⟩ : BufTy).Contents (Elt F)),
    unary main_arg5 main_v18 (broadcastInDim S1x64 ![1] bcast_S64_S1x64_1 : (⟨S64, .f32⟩ : BufTy).Contents (Elt F) → (⟨S1x64, .f32⟩ : BufTy).Contents (Elt F)),
    unary main_v18 main_v19 (broadcastInDim S16384x64 ![0, 1] bcast_S1x64_S16384x64_0_1 : (⟨S1x64, .f32⟩ : BufTy).Contents (Elt F) → (⟨S16384x64, .f32⟩ : BufTy).Contents (Elt F)),
    binary main_v17 main_v19 main_v20 (addf : (⟨S16384x64, .f32⟩ : BufTy).Contents (Elt F) → (⟨S16384x64, .f32⟩ : BufTy).Contents (Elt F) → (⟨S16384x64, .f32⟩ : BufTy).Contents (Elt F)),
    binary main_v20 main_arg6 main_v21 ((fun l r => Host.dotGeneral dot_S16384x64_S1x64_S16384x1_1_1_0_0_n_n none l r) : (⟨S16384x64, .f32⟩ : BufTy).Contents (Elt F) → (⟨S1x64, .f32⟩ : BufTy).Contents (Elt F) → (⟨S16384x1, .f32⟩ : BufTy).Contents (Elt F)),
    unary main_arg7 main_v22 (broadcastInDim S1x1 ![1] bcast_S1_S1x1_1 : (⟨S1, .f32⟩ : BufTy).Contents (Elt F) → (⟨S1x1, .f32⟩ : BufTy).Contents (Elt F)),
    unary main_v22 main_v23 (broadcastInDim S16384x1 ![0, 1] bcast_S1x1_S16384x1_0_1 : (⟨S1x1, .f32⟩ : BufTy).Contents (Elt F) → (⟨S16384x1, .f32⟩ : BufTy).Contents (Elt F)),
    binary main_v21 main_v23 main_v24 (addf : (⟨S16384x1, .f32⟩ : BufTy).Contents (Elt F) → (⟨S16384x1, .f32⟩ : BufTy).Contents (Elt F) → (⟨S16384x1, .f32⟩ : BufTy).Contents (Elt F)) ]

set_option maxRecDepth 4096 in
/-- @main is that straight line: the functions' definitions unfolded at their calls and the records at their
    fields, both sides are one chain of steps once sequencing is reassociated. -/
theorem main_eq (c : Dev nD) : main (F := F) c = seq ops := by
  simp only [main, fn_floor_divide.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibHostRead.lean ====
/-
  Host array operations read at an index, at the ideal values, generic in the sizes.

  A product A·Bᵀ of an [m, k] by an [n, k] array (both contracted along their second axis) at (a, b) is
  Σ_c A[a, c] · B[b, c].  A gather that takes, for each of N start indices, one whole column of an [R, C] array
  is, at (r, n), the array at row r and the column the n-th start index names, read as a signed integer and
  clamped into the C columns.  A vector of length N laid out as one row and then copied down M rows is, at (r, n),
  the vector at n; laid out as one column it is, at (n, 0), the vector at n.
-/
import Idealize.ShloMosaic.PureOps.Ideal
import Idealize.ShloMosaic.PureOps.Ideal.Laws
import Idealize.ShloMosaic.PureOps.Dims
import Idealize.ShloMosaic.Lib.ValueIdx
import Idealize.ShloMosaic.Lib.Pipeline.Value
import Idealize.ShloMosaic.Lib.KernelVsHost

noncomputable section

namespace Cert.LibHostRead

open Idealize.ShloMosaic Idealize.ShloMosaic.ValueIdx

/-- The product A·Bᵀ of an [m, k] array A and an [n, k] array B — the second axis of each contracted, no batch
    axis — read at (a, b), is Σ_c A[a, c] · B[b, c].  At the ideal values; `w` is the well-formedness of the
    dimension numbers. -/
theorem dot_nt_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (⟨[1], [1], [0], [0], [], [], w⟩ : DotDims _ _ _) prec A B (ix2 a b)
      = ∑ c : Fin k, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The gather of whole columns of an [R, C] array x at N start indices — each start index one component naming a
    column; the result's axis 0 runs down the column (slices of R rows by one column), the column axis is
    collapsed — read at (r, n), is x at row r and column min (max idx[n, 0] 0) (C − 1), the start index read as a
    signed integer: a negative index clamps to column 0, one past the end to column C − 1. -/
theorem gather_col_apply {α : Type} {R C N w : Nat} (hC : 0 < C)
    (wf : GatherDims.WF ⟨2, ![R, C]⟩ ⟨2, ![N, 1]⟩ ⟨2, ![R, N]⟩ [0] [1] [] [1] [] 1 ![R, 1])
    (x : (⟨2, ![R, C]⟩ : Shape).Idx → α) (idx : IVec ⟨2, ![N, 1]⟩ w) (r : Fin R) (n : Fin N) :
    Host.gather (⟨[0], [1], [], [], [1], 1, ![R, 1], wf⟩ : GatherDims ⟨2, ![R, C]⟩ ⟨2, ![N, 1]⟩ ⟨2, ![R, N]⟩) x idx (ix2 r n)
      = x (ix2 r ⟨min (idx (ix2 n (0 : Fin 1))).toInt.toNat (C - 1), by omega⟩) := by
  unfold Host.gather
  congr 1
  funext a
  refine Fin.ext ?_
  show GatherDims.start _ (ix2 r n) idx a + GatherDims.batchCoord _ (ix2 r n) a + GatherDims.offCoord _ (ix2 r n) a = _
  rw [GatherDims.batchCoord_eq_zero _ _ _ List.not_mem_nil]
  have h2 : ∀ a : Fin 2, a = 0 ∨ a = 1 := by decide
  rcases h2 a with rfl | rfl
  · unfold GatherDims.start
    rw [dif_neg (show (0 : Fin 2) ∉ [(1 : Fin 2)] from by decide)]
    unfold GatherDims.offCoord
    rw [dif_pos ((GatherDims.mem_sKept _ _).2 ⟨show (0 : Fin 2) ∉ [(1 : Fin 2)] from by decide, List.not_mem_nil⟩)]
    simp only [Nat.zero_add, Nat.add_zero]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] from List.mem_singleton.mpr rfl)]
    have hsi : GatherDims.siIdx (⟨[0], [1], [], [], [1], 1, ![R, 1], wf⟩ : GatherDims ⟨2, ![R, C]⟩ ⟨2, ![N, 1]⟩ ⟨2, ![R, N]⟩) (ix2 r n)
        ⟨List.idxOf (1 : Fin 2) [(1 : Fin 2)], List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

/-- A vector v of length N laid out as the one row of a [1, N] array, that row then copied down M rows, read at
    (r, n), is v[n]. -/
theorem bcast_rows_apply {α : Type} {M N : Nat}
    (h2 : (⟨1, ![N]⟩ : Shape).BroadcastsInDim ⟨2, ![1, N]⟩ ![1])
    (h1 : (⟨2, ![1, N]⟩ : Shape).BroadcastsInDim ⟨2, ![M, N]⟩ ![0, 1])
    (v : (⟨1, ![N]⟩ : Shape).Idx → α) (r : Fin M) (n : Fin N) :
    broadcastInDim ⟨2, ![M, N]⟩ ![0, 1] h1 (broadcastInDim ⟨2, ![1, N]⟩ ![1] h2 v) (ix2 r n) = v (ix1 n) := by
  rw [broadcastInDim_oneRow_apply]
  refine broadcastInDim_apply ![1] h2 v (ix2 (0 : Fin 1) n) (ix1 n) ?_
  intro a
  obtain rfl : a = 0 := Subsingleton.elim _ _
  show n.val = if N = 1 then 0 else n.val
  split_ifs with hn
  · have := n.isLt; omega
  · rfl

/-- A vector v of length N laid out as the one column of an [N, 1] array, read at (n, 0), is v[n]. -/
theorem bcast_col_apply {α : Type} {N : Nat}
    (h : (⟨1, ![N]⟩ : Shape).BroadcastsInDim ⟨2, ![N, 1]⟩ ![0])
    (v : (⟨1, ![N]⟩ : Shape).Idx → α) (n : Fin N) :
    broadcastInDim ⟨2, ![N, 1]⟩ ![0] h v (ix2 n (0 : Fin 1)) = v (ix1 n) := by
  refine broadcastInDim_apply ![0] h v (ix2 n (0 : Fin 1)) (ix1 n) ?_
  intro a
  obtain rfl : a = 0 := Subsingleton.elim _ _
  show n.val = if N = 1 then 0 else n.val
  split_ifs with hn
  · have := n.isLt; omega
  · rfl

end Cert.LibHostRead

end
-- ==== Proof.RefValue.lean ====
/-
  The reference's result read against the specification.  The run of @main leaves the result buffer at the
  operations' composed term of the eight arguments (`out`); read at an index, each stage that is not pointwise —
  the three products A·Bᵀ, the gather of one column per hidden unit, the broadcasts of a vector along the rows —
  is the sum or the entry it stands for, the gather index of hidden unit n is its group n / 512, and the composed
  term is the specification's `refOut` entry by entry.
-/
import proofs.«173882_j38946763440762_2_alg».proof.Proof.RefRun
import proofs.«173882_j38946763440762_2_alg».proof.Proof.Group
import proofs.«173882_j38946763440762_2_alg».proof.Proof.Spec
import proofs.«173882_j38946763440762_2_alg».proof.Proof.LibHostRead
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.LibHostRead

/-! ## The composed term -/

/-- The gather index of each hidden unit: its group, with a negative index counted from the end. -/
def gidx : IVec S4096 32 :=
  select (cmpi .slt (Cert.Group.groupVec bcast_S_S4096) (broadcastInDim S4096 ![] bcast_S_S4096 (constantI S_ 32 0#32)))
    (addi (Cert.Group.groupVec bcast_S_S4096) (broadcastInDim S4096 ![] bcast_S_S4096 (constantI S_ 32 8#32)))
    (Cert.Group.groupVec bcast_S_S4096)

/-- The hidden layer before the clip: the gathered column of x·swmᵀ scaled by coeff, plus bias. -/
def hidden (x : FVec Ideal S16384x8 .f32) (swm : FVec Ideal S8x8 .f32) (coeff bias : FVec Ideal S4096 .f32) :
    FVec Ideal S16384x4096 .f32 :=
  addf
    (mulf
      (Host.gather gather_S16384x8_S4096x1_S16384x4096_0_1_n_n_1_1_163841
        (Host.dotGeneral dot_S16384x8_S8x8_S16384x8_1_1_0_0_n_n none x swm)
        (broadcastInDim S4096x1 ![0] bcast_S4096_S4096x1_0 gidx))
      (broadcastInDim S16384x4096 ![0, 1] bcast_S1x4096_S16384x4096_0_1 (broadcastInDim S1x4096 ![1] bcast_S4096_S1x4096_1 coeff)))
    (broadcastInDim S16384x4096 ![0, 1] bcast_S1x4096_S16384x4096_0_1 (broadcastInDim S1x4096 ![1] bcast_S4096_S1x4096_1 bias))

/-- The clip between the two literal words: the lower bound first, then the upper. -/
def clipped (h : FVec Ideal S16384x4096 .f32) : FVec Ideal S16384x4096 .f32 :=
  minimumf (broadcastInDim S16384x4096 ![] bcast_S_S16384x4096 (constant (F := Ideal) S_ .f32 0x3F800000#32))
    (maximumf (broadcastInDim S16384x4096 ![] bcast_S_S16384x4096 (constant (F := Ideal) S_ .f32 0x00000000#32)) h)

/-- The result buffer's contents as a term of the eight arguments' contents. -/
def out (x : FVec Ideal S16384x8 .f32) (swm : FVec Ideal S8x8 .f32) (coeff bias : FVec Ideal S4096 .f32)
    (W2 : FVec Ideal S64x4096 .f32) (b2 : FVec Ideal S64 .f32) (Wout : FVec Ideal S1x64 .f32) (bout : FVec Ideal S1 .f32) :
    FVec Ideal S16384x1 .f32 :=
  addf
    (Host.dotGeneral dot_S16384x64_S1x64_S16384x1_1_1_0_0_n_n none
      (addf
        (Host.dotGeneral dot_S16384x4096_S64x4096_S16384x64_1_1_0_0_n_n none (clipped (hidden x swm coeff bias)) W2)
        (broadcastInDim S16384x64 ![0, 1] bcast_S1x64_S16384x64_0_1 (broadcastInDim S1x64 ![1] bcast_S64_S1x64_1 b2)))
      Wout)
    (broadcastInDim S16384x1 ![0, 1] bcast_S1x1_S16384x1_0_1 (broadcastInDim S1x1 ![1] bcast_S1_S1x1_1 bout))

attribute [local irreducible] Host.gather in
set_option maxRecDepth 8192 in
set_option maxHeartbeats 1000000 in
/-- The fold of the operations at the result buffer is `out` of the arguments, by computation. -/
theorem v24_eq (V : Valuation τ sig (Elt Ideal)) :
    after (ops (F := Ideal)) V (main_v24 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

set_option maxRecDepth 8192 in
theorem arg0_eq (V : Valuation τ sig (Elt Ideal)) :
    after (ops (F := Ideal)) V (main_arg0 : DevRef τ sig) = V (main_arg0 : DevRef τ sig) := by
  after_results_simp

set_option maxRecDepth 8192 in
theorem arg1_eq (V : Valuation τ sig (Elt Ideal)) :
    after (ops (F := Ideal)) V (main_arg1 : DevRef τ sig) = V (main_arg1 : DevRef τ sig) := by
  after_results_simp

set_option maxRecDepth 8192 in
theorem arg2_eq (V : Valuation τ sig (Elt Ideal)) :
    after (ops (F := Ideal)) V (main_arg2 : DevRef τ sig) = V (main_arg2 : DevRef τ sig) := by
  after_results_simp

set_option maxRecDepth 8192 in
theorem arg3_eq (V : Valuation τ sig (Elt Ideal)) :
    after (ops (F := Ideal)) V (main_arg3 : DevRef τ sig) = V (main_arg3 : DevRef τ sig) := by
  after_results_simp

set_option maxRecDepth 8192 in
theorem arg4_eq (V : Valuation τ sig (Elt Ideal)) :
    after (ops (F := Ideal)) V (main_arg4 : DevRef τ sig) = V (main_arg4 : DevRef τ sig) := by
  after_results_simp

set_option maxRecDepth 8192 in
theorem arg5_eq (V : Valuation τ sig (Elt Ideal)) :
    after (ops (F := Ideal)) V (main_arg5 : DevRef τ sig) = V (main_arg5 : DevRef τ sig) := by
  after_results_simp

set_option maxRecDepth 8192 in
theorem arg6_eq (V : Valuation τ sig (Elt Ideal)) :
    after (ops (F := Ideal)) V (main_arg6 : DevRef τ sig) = V (main_arg6 : DevRef τ sig) := by
  after_results_simp

set_option maxRecDepth 8192 in
theorem arg7_eq (V : Valuation τ sig (Elt Ideal)) :
    after (ops (F := Ideal)) V (main_arg7 : DevRef τ sig) = V (main_arg7 : DevRef τ sig) := by
  after_results_simp

/-! ## Entry by entry -/

theorem dot1_apply (A : FVec Ideal S16384x8 .f32) (B : FVec Ideal S8x8 .f32) (r : Fin 16384) (g : Fin 8) :
    Host.dotGeneral dot_S16384x8_S8x8_S16384x8_1_1_0_0_n_n none A B (ix2 r g) = ∑ i : Fin 8, A (ix2 r i) * B (ix2 g i) :=
  dot_nt_apply _ none A B r g

theorem dot2_apply (A : FVec Ideal S16384x4096 .f32) (B : FVec Ideal S64x4096 .f32) (r : Fin 16384) (l : Fin 64) :
    Host.dotGeneral dot_S16384x4096_S64x4096_S16384x64_1_1_0_0_n_n none A B (ix2 r l)
      = ∑ n : Fin 4096, A (ix2 r n) * B (ix2 l n) :=
  dot_nt_apply _ none A B r l

theorem dot3_apply (A : FVec Ideal S16384x64 .f32) (B : FVec Ideal S1x64 .f32) (r : Fin 16384) (c : Fin 1) :
    Host.dotGeneral dot_S16384x64_S1x64_S16384x1_1_1_0_0_n_n none A B (ix2 r c) = ∑ l : Fin 64, A (ix2 r l) * B (ix2 c l) :=
  dot_nt_apply _ none A B r c

/-- A group index below eight is not negative, so it is its own wrapped index, inside the eight columns. -/
theorem wrap_all : ∀ q : Fin 8,
    min (Scalar.select (IntOp.cmpi .slt (BitVec.ofNat 32 q.val) 0#32) (IntOp.addi (BitVec.ofNat 32 q.val) 8#32)
      (BitVec.ofNat 32 q.val)).toInt.toNat 7 = q.val := by decide

/-- The gather index of hidden unit n is the wrapped word of its group. -/
theorem gidx_apply (n : Fin 4096) :
    gidx (ix1 n) = Scalar.select (IntOp.cmpi .slt (BitVec.ofNat 32 (Cert.Spec.grp n).val) 0#32)
      (IntOp.addi (BitVec.ofNat 32 (Cert.Spec.grp n).val) 8#32) (BitVec.ofNat 32 (Cert.Spec.grp n).val) := by
  show Scalar.select (IntOp.cmpi .slt (Cert.Group.groupVec bcast_S_S4096 (ix1 n)) 0#32)
      (IntOp.addi (Cert.Group.groupVec bcast_S_S4096 (ix1 n)) 8#32) (Cert.Group.groupVec bcast_S_S4096 (ix1 n)) = _
  rw [Cert.Group.groupVec_apply]

/-- The program's gather at (r, n): row r of the operand, at the column the start index of unit n names. -/
theorem gather_apply (P : FVec Ideal S16384x8 .f32) (idx : IVec S4096x1 32) (r : Fin 16384) (n : Fin 4096) :
    Host.gather gather_S16384x8_S4096x1_S16384x4096_0_1_n_n_1_1_163841 P idx (ix2 r n)
      = P (ix2 r ⟨min (idx (ix2 n (0 : Fin 1))).toInt.toNat (8 - 1), by omega⟩) := by
  unfold gather_S16384x8_S4096x1_S16384x4096_0_1_n_n_1_1_163841
  exact gather_col_apply (by decide) _ P idx r n

/-- The gather reads, for hidden unit n, the column of its group. -/
theorem gathered_apply (P : FVec Ideal S16384x8 .f32) (r : Fin 16384) (n : Fin 4096) :
    Host.gather gather_S16384x8_S4096x1_S16384x4096_0_1_n_n_1_1_163841 P
      (broadcastInDim S4096x1 ![0] bcast_S4096_S4096x1_0 gidx) (ix2 r n) = P (ix2 r (Cert.Spec.grp n)) := by
  rw [gather_apply]
  refine congrArg (fun g => P (ix2 r g)) (Fin.ext ?_)
  show min ((broadcastInDim S4096x1 ![0] bcast_S4096_S4096x1_0 gidx) (ix2 n (0 : Fin 1))).toInt.toNat 7 = _
  rw [bcast_col_apply, gidx_apply]
  exact wrap_all _

/-- The hidden layer before the clip, at (r, n). -/
theorem hidden_apply (x : FVec Ideal S16384x8 .f32) (swm : FVec Ideal S8x8 .f32) (coeff bias : FVec Ideal S4096 .f32)
    (r : Fin 16384) (n : Fin 4096) :
    hidden x swm coeff bias (ix2 r n)
      = Cert.Spec.proj x swm r (Cert.Spec.grp n) * coeff (ix1 n) + bias (ix1 n) := by
  unfold hidden
  rw [addf_apply, mulf_apply, gathered_apply, bcast_rows_apply, bcast_rows_apply, dot1_apply]
  rfl

/-- The clip at an entry is the specification's. -/
theorem clipped_apply (h : FVec Ideal S16384x4096 .f32) (j : S16384x4096.Idx) :
    clipped h j = Cert.Spec.clip01 (h j) := rfl

/-- The composed term is the specification's reference arrangement. -/
theorem out_eq (x : FVec Ideal S16384x8 .f32) (swm : FVec Ideal S8x8 .f32) (coeff bias : FVec Ideal S4096 .f32)
    (W2 : FVec Ideal S64x4096 .f32) (b2 : FVec Ideal S64 .f32) (Wout : FVec Ideal S1x64 .f32) (bout : FVec Ideal S1 .f32) :
    out x swm coeff bias W2 b2 Wout bout = Cert.Spec.refOut x swm coeff bias W2 b2 Wout bout := by
  funext j
  obtain ⟨r, c, rfl⟩ : ∃ (r : Fin 16384) (c : Fin 1), j = ix2 r c := ⟨j 0, j 1, eq_ix2 j⟩
  unfold out
  rw [addf_apply, bcast_rows_apply, dot3_apply]
  show _ = (∑ l : Fin 64, ((∑ n : Fin 4096, Cert.Spec.actRef x swm coeff bias r n * W2 (ix2 l n)) + b2 (ix1 l))
    * Wout (ix2 c l)) + bout (ix1 c)
  refine congrArg (· + bout (ix1 c)) (Finset.sum_congr rfl fun l _ => ?_)
  rw [addf_apply, bcast_rows_apply, dot2_apply]
  refine congrArg (fun s => (s + b2 (ix1 l)) * Wout (ix2 c l)) (Finset.sum_congr rfl fun n _ => ?_)
  rw [clipped_apply, hidden_apply]
  rfl

/-! ## The run -/

/-- On every device, from any memory with zero counters: every weakly fair execution of @main terminates with the
    result buffer at the specification's reference arrangement of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v24).trans ((v24_eq _).trans (out_eq _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.RefValue

end
-- ==== Proof.lean ====
/-
  The proof of `Cert.Claim`: the three frames, the (empty) idealization ledger, and the equality of the idealized kernel and
  the idealized reference on the extended reals.

  The network: a row x[r,·] of the input is projected on the eight rows of swm; hidden unit n (of 4096) takes the projection
  on row  grp n = n / 512, scales it by coeff[n], adds bias[n] and clips to [0, 1]; two affine layers (W2, b2 to 64 labels;
  Wout, bout to one output) follow with nothing between them.

  The reference computes exactly that. The kernel folds, once on the host, the group selection and the scale into one
  [8, 4096] matrix  mix[i,n] = Σ_j swm[j,i] · (sel[j,n] · coeff[n]), and the two affine layers into one [4096, 1] column
  wf[n] = Σ_l W2[l,n] · Wout[0,l] and one number bf = Σ_l b2[l] · Wout[0,l] + bout[0]; on each block of 512 rows it then computes
  Σ_n clip01 (Σ_i x[r,i] · mix[i,n] + bias[n]) · wf[n] + bf. The changes of float format in between are the identity on the
  extended reals.

  The two agree by distributivity and by exchanging the sums over n and l — laws that hold for real numbers but not at the
  infinities, which is where the precondition (every input entry finite) is used: `Cert.Spec.kerOut_eq_refOut`.
  The kernel's result array is read from its generated blockwise run (`KerValue.run`), the reference's from its run written
  as a straight line of host operations (`RefValue.run`); the frames of the two kernel programs are the generated ones, and the
  reference's frame is its run with the result dropped.
-/
import proofs.«173882_j38946763440762_2_alg».proof.Defs
import proofs.«173882_j38946763440762_2_alg».proof.Proof.Gen.Kernel
import proofs.«173882_j38946763440762_2_alg».proof.Proof.Gen.Kernel.Skeleton
import proofs.«173882_j38946763440762_2_alg».proof.Proof.Gen.Kernel.Launch
import proofs.«173882_j38946763440762_2_alg».proof.Proof.Gen.Kernel.Points
import proofs.«173882_j38946763440762_2_alg».proof.Proof.Gen.Kernel.Frame
import proofs.«173882_j38946763440762_2_alg».proof.Proof.Gen.KernelIdeal
import proofs.«173882_j38946763440762_2_alg».proof.Proof.Gen.KernelIdeal.Skeleton
import proofs.«173882_j38946763440762_2_alg».proof.Proof.Gen.KernelIdeal.Launch
import proofs.«173882_j38946763440762_2_alg».proof.Proof.Gen.KernelIdeal.Points
import proofs.«173882_j38946763440762_2_alg».proof.Proof.Gen.KernelIdeal.Frame
import proofs.«173882_j38946763440762_2_alg».proof.Proof.Gen.KernelIdeal.Value
import proofs.«173882_j38946763440762_2_alg».proof.Proof.Gen.ReferenceIdeal
import proofs.«173882_j38946763440762_2_alg».proof.Proof.Gen.Pre_finite_inputs
import proofs.«173882_j38946763440762_2_alg».proof.Proof.Spec
import proofs.«173882_j38946763440762_2_alg».proof.Proof.Algebra
import proofs.«173882_j38946763440762_2_alg».proof.Proof.FiniteInputs
import proofs.«173882_j38946763440762_2_alg».proof.Proof.KerValue
import proofs.«173882_j38946763440762_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- The idealized kernel runs and leaves its arguments unchanged: the generated frame. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation: nothing to preserve. -/
theorem preserves : Cert.preserves_Kernel_KernelIdeal := trivial

/-- From memories agreeing on the arguments, both idealized programs end with the same result array: the kernel's at the
    folded arrangement, the reference's at the plain one, equal because every input entry is a real number. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7⟩ := hagree c
  obtain ⟨f0, f1, f2, f3, f4, f5, f6, f7⟩ := Cert.FiniteInputs.finite_of_pre m hpre c
  rw [a0, a1, a2, a3, a4, a5, a6, a7]
  exact (Cert.Spec.kerOut_eq_refOut _ _ _ _ _ _ _ _ f0 f1 f2 f3 f4 f5 f6 f7).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
